-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x64x256x256 : Shape := ⟨5, ![8, 1, 64, 256, 256]⟩
abbrev S256x4096 : Shape := ⟨2, ![256, 4096]⟩
abbrev S256 : Shape := ⟨1, ![256]⟩
abbrev S1x1024x256 : Shape := ⟨3, ![1, 1024, 256]⟩
abbrev S256x256 : Shape := ⟨2, ![256, 256]⟩
abbrev S1024x1024 : Shape := ⟨2, ![1024, 1024]⟩
abbrev S4096x256 : Shape := ⟨2, ![4096, 256]⟩
abbrev S4096 : Shape := ⟨1, ![4096]⟩
abbrev S_ : Shape := ⟨0, ![]⟩

class Facts : Prop where
  bcast_S_S8x1x64x256x256 : S_.BroadcastsInDim S8x1x64x256x256 (![] : Fin 0 → Fin S8x1x64x256x256.rank)
  reducesTo_S8x1x64x256x256_S_d0_1_2_3_4 : S8x1x64x256x256.ReducesTo [0, 1, 2, 3, 4] S_
  h_S_ : 0 < S_.numel
  bcast_S_S256x4096 : S_.BroadcastsInDim S256x4096 (![] : Fin 0 → Fin S256x4096.rank)
  reducesTo_S256x4096_S_d0_1 : S256x4096.ReducesTo [0, 1] S_
  bcast_S_S256 : S_.BroadcastsInDim S256 (![] : Fin 0 → Fin S256.rank)
  reducesTo_S256_S_d0 : S256.ReducesTo [0] S_
  bcast_S_S1x1024x256 : S_.BroadcastsInDim S1x1024x256 (![] : Fin 0 → Fin S1x1024x256.rank)
  reducesTo_S1x1024x256_S_d0_1_2 : S1x1024x256.ReducesTo [0, 1, 2] S_
  bcast_S_S256x256 : S_.BroadcastsInDim S256x256 (![] : Fin 0 → Fin S256x256.rank)
  reducesTo_S256x256_S_d0_1 : S256x256.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S4096x256 : S_.BroadcastsInDim S4096x256 (![] : Fin 0 → Fin S4096x256.rank)
  reducesTo_S4096x256_S_d0_1 : S4096x256.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096x256 .f32) (main_arg8 : FVec F S4096 .f32) (main_v33 : IVec S_ 1) : IVec S_ 1 :=
  let main_v34 : FVec F S4096x256 .f32 := Host.absf main_arg7
  let main_cst_12 : FVec F S_ .f32 := constant S_ .f32 0x7F800000#32
  let main_v35 : FVec F S4096x256 .f32 := broadcastInDim S4096x256 ![] bcast_S_S4096x256 main_cst_12
  let main_v36 : IVec S4096x256 1 := cmpf .olt main_v34 main_v35
  let main_c_13 : IVec S_ 1 := constantI S_ 1 1#1
  let main_v37 : IVec S_ 1 := (fun x v => Host.reduce IntOp.andi x v reducesTo_S4096x256_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  main_v43

def fn_part1 {F : FTy → Type} [FloatOps F] (main_arg4 : FVec F S256x256 .f32) (main_arg5 : FVec F S1024x1024 .f32) (main_arg6 : FVec F S256x256 .f32) (main_arg7 : FVec F S4096x256 .f32) (main_arg8 : FVec F S4096 .f32) (main_v13 : IVec S_ 1) (main_v16 : IVec S1x1024x256 1) : IVec S_ 1 :=
  let main_c_5 : IVec S_ 1 := constantI S_ 1 1#1
  let main_v17 : IVec S_ 1 := (fun x v => Host.reduce IntOp.andi x v reducesTo_S1x1024x256_S_d0_1_2 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_v33

def fn {F : FTy → Type} [FloatOps F] (main_arg0 : FVec F S8x1x64x256x256 .f32) (main_arg1 : FVec F S256x4096 .f32) (main_arg2 : FVec F S256 .f32) (main_arg3 : FVec F S1x1024x256 .f32) (main_arg4 : FVec F S256x256 .f32) (main_arg5 : FVec F S1024x1024 .f32) (main_arg6 : FVec F S256x256 .f32) (main_arg7 : FVec F S4096x256 .f32) (main_arg8 : FVec F S4096 .f32) : IVec S_ 1 :=
  let main_v0 : FVec F S8x1x64x256x256 .f32 := Host.absf main_arg0
  let main_cst : FVec F S_ .f32 := constant S_ .f32 0x7F800000#32
  let main_v1 : FVec F S8x1x64x256x256 .f32 := broadcastInDim S8x1x64x256x256 ![] bcast_S_S8x1x64x256x256 main_cst
  let main_v2 : IVec S8x1x64x256x256 1 := cmpf .olt main_v0 main_v1
  let main_c : IVec S_ 1 := constantI S_ 1 1#1
  let main_v3 : IVec S_ 1 := (fun x v => Host.reduce IntOp.andi x v reducesTo_S8x1x64x256x256_S_d0_1_2_3_4 h_S_) main_v2 main_c
  let main_v4 : FVec F S256x4096 .f32 := Host.absf main_arg1
  let main_cst_0 : FVec F S_ .f32 := constant S_ .f32 0x7F800000#32
  let main_v5 : FVec F S256x4096 .f32 := broadcastInDim S256x4096 ![] bcast_S_S256x4096 main_cst_0
  let main_v6 : IVec S256x4096 1 := cmpf .olt main_v4 main_v5
  let main_c_1 : IVec S_ 1 := constantI S_ 1 1#1
  let main_v7 : IVec S_ 1 := (fun x v => Host.reduce IntOp.andi x v reducesTo_S256x4096_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S1x1024x256 .f32 := Host.absf main_arg3
  let main_cst_4 : FVec F S_ .f32 := constant S_ .f32 0x7F800000#32
  let main_v15 : FVec F S1x1024x256 .f32 := broadcastInDim S1x1024x256 ![] bcast_S_S1x1024x256 main_cst_4
  let main_v16 : IVec S1x1024x256 1 := cmpf .olt main_v14 main_v15
  fn_part1 (F := F) main_arg4 main_arg5 main_arg6 main_arg7 main_arg8 main_v13 main_v16
-- ==== Kernel.lean ====
abbrev S8x1x64x256x256 : Shape := ⟨5, ![8, 1, 64, 256, 256]⟩
abbrev S256x4096 : Shape := ⟨2, ![256, 4096]⟩
abbrev S256 : Shape := ⟨1, ![256]⟩
abbrev S1x1024x256 : Shape := ⟨3, ![1, 1024, 256]⟩
abbrev S256x256 : Shape := ⟨2, ![256, 256]⟩
abbrev S1024x1024 : Shape := ⟨2, ![1024, 1024]⟩
abbrev S4096x256 : Shape := ⟨2, ![4096, 256]⟩
abbrev S4096 : Shape := ⟨1, ![4096]⟩
abbrev S8x64x32x8x32x8 : Shape := ⟨6, ![8, 64, 32, 8, 32, 8]⟩
abbrev S8x32x32x64x8x8 : Shape := ⟨6, ![8, 32, 32, 64, 8, 8]⟩
abbrev S8x1024x4096 : Shape := ⟨3, ![8, 1024, 4096]⟩
abbrev S4 : Shape := ⟨1, ![4]⟩
abbrev S4x1 : Shape := ⟨2, ![4, 1]⟩
abbrev S1x256 : Shape := ⟨2, ![1, 256]⟩
abbrev S_ : Shape := ⟨0, ![]⟩
abbrev S4x256 : Shape := ⟨2, ![4, 256]⟩
abbrev S8x1024x256 : Shape := ⟨3, ![8, 1024, 256]⟩
abbrev S8x4x1024 : Shape := ⟨3, ![8, 4, 1024]⟩
abbrev S1x256x4096 : Shape := ⟨3, ![1, 256, 4096]⟩
abbrev S1x256x256 : Shape := ⟨3, ![1, 256, 256]⟩
abbrev S1x4x256 : Shape := ⟨3, ![1, 4, 256]⟩
abbrev S1x4x1024 : Shape := ⟨3, ![1, 4, 1024]⟩
abbrev S4x1024 : Shape := ⟨2, ![4, 1024]⟩
abbrev S1x4x512 : Shape := ⟨3, ![1, 4, 512]⟩
abbrev S1x512x256 : Shape := ⟨3, ![1, 512, 256]⟩
abbrev S1x512x4096 : Shape := ⟨3, ![1, 512, 4096]⟩
abbrev S4x512 : Shape := ⟨2, ![4, 512]⟩
abbrev S512x256 : Shape := ⟨2, ![512, 256]⟩
abbrev S512x4096 : Shape := ⟨2, ![512, 4096]⟩
abbrev S1x4096 : Shape := ⟨2, ![1, 4096]⟩

abbrev nBuf : Space → Nat
  | .hbm => 64
  | .vmem => 27
  | .smem => 0
  | _ => 0

abbrev bufTy : (tb : Table) → Fin (tcTables nBuf tb) → BufTy
  | .hbm, ⟨0, _⟩ => ⟨S8x1x64x256x256, .f32⟩
  | .hbm, ⟨1, _⟩ => ⟨S256x4096, .f32⟩
  | .hbm, ⟨2, _⟩ => ⟨S256, .f32⟩
  | .hbm, ⟨3, _⟩ => ⟨S1x1024x256, .f32⟩
  | .hbm, ⟨4, _⟩ => ⟨S256x256, .f32⟩
  | .hbm, ⟨5, _⟩ => ⟨S1024x1024, .f32⟩
  | .hbm, ⟨6, _⟩ => ⟨S256x256, .f32⟩
  | .hbm, ⟨7, _⟩ => ⟨S4096x256, .f32⟩
  | .hbm, ⟨8, _⟩ => ⟨S4096, .f32⟩
  | .hbm, ⟨9, _⟩ => ⟨S8x64x32x8x32x8, .f32⟩
  | .hbm, ⟨10, _⟩ => ⟨S8x32x32x64x8x8, .f32⟩
  | .hbm, ⟨11, _⟩ => ⟨S8x1024x4096, .f32⟩
  | .hbm, ⟨12, _⟩ => ⟨S8x1024x4096, .bf16⟩
  | .hbm, ⟨13, _⟩ => ⟨S4096x256, .f32⟩
  | .hbm, ⟨14, _⟩ => ⟨S4096x256, .bf16⟩
  | .hbm, ⟨15, _⟩ => ⟨S256x256, .f32⟩
  | .hbm, ⟨16, _⟩ => ⟨S256x256, .bf16⟩
  | .hbm, ⟨17, _⟩ => ⟨S256x256, .f32⟩
  | .hbm, ⟨18, _⟩ => ⟨S256x256, .bf16⟩
  | .hbm, ⟨19, _⟩ => ⟨S256x4096, .f32⟩
  | .hbm, ⟨20, _⟩ => ⟨S256x4096, .bf16⟩
  | .hbm, ⟨21, _⟩ => ⟨S1024x1024, .bf16⟩
  | .hbm, ⟨22, _⟩ => ⟨S4, .i32⟩
  | .hbm, ⟨23, _⟩ => ⟨S4x1, .i32⟩
  | .hbm, ⟨24, _⟩ => ⟨S256, .i32⟩
  | .hbm, ⟨25, _⟩ => ⟨S1x256, .i32⟩
  | .hbm, ⟨26, _⟩ => ⟨S_, .i32⟩
  | .hbm, ⟨27, _⟩ => ⟨S_, .i32⟩
  | .hbm, ⟨28, _⟩ => ⟨S1x256, .i32⟩
  | .hbm, ⟨29, _⟩ => ⟨S1x256, .i32⟩
  | .hbm, ⟨30, _⟩ => ⟨S1x256, .i32⟩
  | .hbm, ⟨31, _⟩ => ⟨S_, .i32⟩
  | .hbm, ⟨32, _⟩ => ⟨S1x256, .i32⟩
  | .hbm, ⟨33, _⟩ => ⟨S1x256, .i1⟩
  | .hbm, ⟨34, _⟩ => ⟨S1x256, .i32⟩
  | .hbm, ⟨35, _⟩ => ⟨S1x256, .i32⟩
  | .hbm, ⟨36, _⟩ => ⟨S_, .i32⟩
  | .hbm, ⟨37, _⟩ => ⟨S1x256, .i32⟩
  | .hbm, ⟨38, _⟩ => ⟨S1x256, .i1⟩
  | .hbm, ⟨39, _⟩ => ⟨S1x256, .i1⟩
  | .hbm, ⟨40, _⟩ => ⟨S_, .i32⟩
  | .hbm, ⟨41, _⟩ => ⟨S1x256, .i32⟩
  | .hbm, ⟨42, _⟩ => ⟨S1x256, .i32⟩
  | .hbm, ⟨43, _⟩ => ⟨S1x256, .i32⟩
  | .hbm, ⟨44, _⟩ => ⟨S4x256, .i32⟩
  | .hbm, ⟨45, _⟩ => ⟨S4x256, .i32⟩
  | .hbm, ⟨46, _⟩ => ⟨S4x256, .i1⟩
  | .hbm, ⟨47, _⟩ => ⟨S_, .f32⟩
  | .hbm, ⟨48, _⟩ => ⟨S_, .f32⟩
  | .hbm, ⟨49, _⟩ => ⟨S4x256, .f32⟩
  | .hbm, ⟨50, _⟩ => ⟨S4x256, .f32⟩
  | .hbm, ⟨51, _⟩ => ⟨S4x256, .f32⟩
  | .hbm, ⟨52, _⟩ => ⟨S_, .f32⟩
  | .hbm, ⟨53, _⟩ => ⟨S_, .f32⟩
  | .hbm, ⟨54, _⟩ => ⟨S4x256, .f32⟩
  | .hbm, ⟨55, _⟩ => ⟨S4x256, .f32⟩
  | .hbm, ⟨56, _⟩ => ⟨S4x256, .f32⟩
  | .hbm, ⟨57, _⟩ => ⟨S8x1024x256, .bf16⟩
  | .hbm, ⟨58, _⟩ => ⟨S8x4x1024, .f32⟩
  | .hbm, ⟨59, _⟩ => ⟨S8x4x1024, .f32⟩
  | .hbm, ⟨60, _⟩ => ⟨S8x1024x4096, .f32⟩
  | .hbm, ⟨61, _⟩ => ⟨S8x32x32x64x8x8, .f32⟩
  | .hbm, ⟨62, _⟩ => ⟨S8x64x32x8x32x8, .f32⟩
  | .hbm, ⟨63, _⟩ => ⟨S8x1x64x256x256, .f32⟩
  | .local _ .vmem, ⟨0, _⟩ => ⟨S1x256x4096, .bf16⟩
  | .local _ .vmem, ⟨1, _⟩ => ⟨S1x256x4096, .bf16⟩
  | .local _ .vmem, ⟨2, _⟩ => ⟨S4096x256, .bf16⟩
  | .local _ .vmem, ⟨3, _⟩ => ⟨S256, .f32⟩
  | .local _ .vmem, ⟨4, _⟩ => ⟨S1x256x256, .f32⟩
  | .local _ .vmem, ⟨5, _⟩ => ⟨S1x256x256, .f32⟩
  | .local _ .vmem, ⟨6, _⟩ => ⟨S256x256, .bf16⟩
  | .local _ .vmem, ⟨7, _⟩ => ⟨S4x256, .f32⟩
  | .local _ .vmem, ⟨8, _⟩ => ⟨S1x256x256, .bf16⟩
  | .local _ .vmem, ⟨9, _⟩ => ⟨S1x256x256, .bf16⟩
  | .local _ .vmem, ⟨10, _⟩ => ⟨S1x4x256, .f32⟩
  | .local _ .vmem, ⟨11, _⟩ => ⟨S1x4x256, .f32⟩
  | .local _ .vmem, ⟨12, _⟩ => ⟨S1x4x1024, .f32⟩
  | .local _ .vmem, ⟨13, _⟩ => ⟨S1x4x1024, .f32⟩
  | .local _ .vmem, ⟨14, _⟩ => ⟨S1024x1024, .bf16⟩
  | .local _ .vmem, ⟨15, _⟩ => ⟨S1x4x1024, .f32⟩
  | .local _ .vmem, ⟨16, _⟩ => ⟨S1x4x1024, .f32⟩
  | .local _ .vmem, ⟨17, _⟩ => ⟨S1x4x512, .f32⟩
  | .local _ .vmem, ⟨18, _⟩ => ⟨S1x4x512, .f32⟩
  | .local _ .vmem, ⟨19, _⟩ => ⟨S1x512x256, .bf16⟩
  | .local _ .vmem, ⟨20, _⟩ => ⟨S1x512x256, .bf16⟩
  | .local _ .vmem, ⟨21, _⟩ => ⟨S256x256, .bf16⟩
  | .local _ .vmem, ⟨22, _⟩ => ⟨S4x256, .f32⟩
  | .local _ .vmem, ⟨23, _⟩ => ⟨S256x4096, .bf16⟩
  | .local _ .vmem, ⟨24, _⟩ => ⟨S4096, .f32⟩
  | .local _ .vmem, ⟨25, _⟩ => ⟨S1x512x4096, .f32⟩
  | .local _ .vmem, ⟨26, _⟩ => ⟨S1x512x4096, .f32⟩
  | _, _ => ⟨S8x1x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_0 : Ref sig .tc := ⟨.hbm, 40, rfl⟩
abbrev main_call0_v12 : Ref sig .tc := ⟨.hbm, 41, rfl⟩
abbrev main_call0_v13 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst : Ref sig .tc := ⟨.hbm, 47, rfl⟩
abbrev main_cst_0 : Ref sig .tc := ⟨.hbm, 48, rfl⟩
abbrev main_call1_v0 : Ref sig .tc := ⟨.hbm, 49, rfl⟩
abbrev main_call1_v1 : Ref sig .tc := ⟨.hbm, 50, rfl⟩
abbrev main_v21 : Ref sig .tc := ⟨.hbm, 51, rfl⟩
abbrev main_cst_1 : Ref sig .tc := ⟨.hbm, 52, rfl⟩
abbrev main_cst_2 : Ref sig .tc := ⟨.hbm, 53, rfl⟩
abbrev main_call2_v0 : Ref sig .tc := ⟨.hbm, 54, rfl⟩
abbrev main_call2_v1 : Ref sig .tc := ⟨.hbm, 55, rfl⟩
abbrev main_v22 : Ref sig .tc := ⟨.hbm, 56, rfl⟩
abbrev main_v23_0 : Ref sig .tc := ⟨.hbm, 57, rfl⟩
abbrev main_v23_1 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem6_1 : DmaSem sig := 26

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x4x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x4x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x512x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S256x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S4x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S256x4096 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S4096 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x512x4096 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

class Facts₀ : Prop where
  shapeCasts_S8x1x64x256x256_S8x64x32x8x32x8 : S8x1x64x256x256.ShapeCasts S8x64x32x8x32x8
  transposes_S8x64x32x8x32x8_S8x32x32x64x8x8_0_2_4_1_3_5 : S8x64x32x8x32x8.Transposes [0, 2, 4, 1, 3, 5] S8x32x32x64x8x8
  shapeCasts_S8x32x32x64x8x8_S8x1024x4096 : S8x32x32x64x8x8.ShapeCasts S8x1024x4096
  bitsLt_bf16_f32 : FTy.bits .bf16 < FTy.bits .f32
  transposes_S256x4096_S4096x256_1_0 : S256x4096.Transposes [1, 0] S4096x256
  transposes_S256x256_S256x256_1_0 : S256x256.Transposes [1, 0] S256x256
  transposes_S4096x256_S256x4096_1_0 : S4096x256.Transposes [1, 0] S256x4096
  bcast_S4_S4x1_0 : S4.BroadcastsInDim S4x1 (![0] : Fin 1 → Fin S4x1.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S4x256_0_1 : S1x256.BroadcastsInDim S4x256 (![0, 1] : Fin 2 → Fin S4x256.rank)
  bcast_S4x1_S4x256_0_1 : S4x1.BroadcastsInDim S4x256 (![0, 1] : Fin 2 → Fin S4x256.rank)
  bcast_S_S4x256 : S_.BroadcastsInDim S4x256 (![] : Fin 0 → Fin S4x256.rank)
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256_S256_0 : ∀ a, (![0] : Fin 1 → Nat) a + S256.size a ≤ S256.size a
  h_S256 : 0 < S256.numel
  shapeCasts_S256_S1x256 : S256.ShapeCasts S1x256
  broadcasts_S1x256_S256x256 : S1x256.Broadcasts S256x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  packedbf16_S1x256x256_S1x256x256_0_0_0 : (Rect.unit (s := S1x256x256) ![0, 0, 0] S1x256x256.size inb_S1x256x256_S1x256x256_0_0_0).PackedRows (EltTy.packing .bf16)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S4x256_S4x256_0_0 : ∀ a, (![0, 0] : Fin 2 → Nat) a + S4x256.size a ≤ S4x256.size a
  h_S4x256 : 0 < S4x256.numel
  shapeCasts_S4x256_S4x256 : S4x256.ShapeCasts S4x256
  inb_S1x4x256_S1x4x256_0_0_0 : ∀ a, (![0, 0, 0] : Fin 3 → Nat) a + S1x4x256.size a ≤ S1x4x256.size a
  h_S1x4x256 : 0 < S1x4x256.numel
  shapeCasts_S1x4x256_S4x256 : S1x4x256.ShapeCasts S4x256
  shapeCasts_S4x256_S1x4x256 : S4x256.ShapeCasts S1x4x256
  inb_S1x4x1024_S1x4x1024_0_0_0 : ∀ a, (![0, 0, 0] : Fin 3 → Nat) a + S1x4x1024.size a ≤ S1x4x1024.size a
  h_S1x4x1024 : 0 < S1x4x1024.numel
  shapeCasts_S1x4x1024_S4x1024 : S1x4x1024.ShapeCasts S4x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S4x1024_S1x4x1024 : S4x1024.ShapeCasts S1x4x1024
  inb_S1x4x512_S1x4x512_0_0_0 : ∀ a, (![0, 0, 0] : Fin 3 → Nat) a + S1x4x512.size a ≤ S1x4x512.size a
  h_S1x4x512 : 0 < S1x4x512.numel
  shapeCasts_S1x4x512_S4x512 : S1x4x512.ShapeCasts S4x512
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S512x4096 : S1x4096.Broadcasts S512x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  shapeCasts_S512x4096_S1x512x4096 : S512x4096.ShapeCasts S1x512x4096
  shapeCasts_S8x1024x4096_S8x32x32x64x8x8 : S8x1024x4096.ShapeCasts S8x32x32x64x8x8
  transposes_S8x32x32x64x8x8_S8x64x32x8x32x8_0_3_1_4_2_5 : S8x32x32x64x8x8.Transposes [0, 3, 1, 4, 2, 5] S8x64x32x8x32x8
  shapeCasts_S8x64x32x8x32x8_S8x1x64x256x256 : S8x64x32x8x32x8.ShapeCasts S8x1x64x256x256
  dot_S256x4096_S4096x256_S256x256_1_0_0_1_n_n_wf : DotDims.WF S256x4096 S4096x256 S256x256 [1] [0] [0] [1] [] []
  dot_S256x256_S256x256_S256x256_1_0_0_1_n_n_wf : DotDims.WF S256x256 S256x256 S256x256 [1] [0] [0] [1] [] []
  dot_S4x256_S256x256_S4x256_1_1_0_0_n_n_wf : DotDims.WF S4x256 S256x256 S4x256 [1] [1] [0] [0] [] []
  dot_S4x1024_S1024x1024_S4x1024_1_1_0_0_n_n_wf : DotDims.WF S4x1024 S1024x1024 S4x1024 [1] [1] [0] [0] [] []
  dot_S512x256_S256x256_S512x256_1_0_0_1_n_n_wf : DotDims.WF S512x256 S256x256 S512x256 [1] [0] [0] [1] [] []
  dot_S4x512_S4x256_S512x256_0_0_1_1_n_n_wf : DotDims.WF S4x512 S4x256 S512x256 [0] [0] [1] [1] [] []
  dot_S512x256_S256x4096_S512x4096_1_0_0_1_n_n_wf : DotDims.WF S512x256 S256x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S8x1024x4096.size a
  hwx0_0 : ∀ i : grid0.Coords, EltTy.bits .bf16 = 32 ∨ (Rect.block (s := S8x1024x4096) S1x256x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .bf16 = 32 ∨ (Rect.block (s := S4096x256) S4096x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S1x1024x256.size a
  hwx0_3 : ∀ i : grid0.Coords, EltTy.bits .f32 = 32 ∨ (Rect.block (s := S1x1024x256) S1x256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x256.size a ≤ S4x256.size a
  hwx0_5 : ∀ i : grid0.Coords, EltTy.bits .f32 = 32 ∨ (Rect.block (s := S4x256) S4x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x256.size a ≤ S8x1024x256.size a
  hwx0_6 : ∀ i : grid0.Coords, EltTy.bits .bf16 = 32 ∨ (Rect.block (s := S8x1024x256) S1x256x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x4x256.size a ≤ S8x4x1024.size a
  hwx0_7 : ∀ i : grid0.Coords, EltTy.bits .f32 = 32 ∨ (Rect.block (s := S8x4x1024) S1x4x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4x1024.size a ≤ S8x4x1024.size a
  hwx1_0 : ∀ i : grid1.Coords, EltTy.bits .f32 = 32 ∨ (Rect.block (s := S8x4x1024) S1x4x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4x1024.size a ≤ S8x4x1024.size a
  hwx1_2 : ∀ i : grid1.Coords, EltTy.bits .f32 = 32 ∨ (Rect.block (s := S8x4x1024) S1x4x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x4x512.size a ≤ S8x4x1024.size a
  hwx2_0 : ∀ i : grid2.Coords, EltTy.bits .f32 = 32 ∨ (Rect.block (s := S8x4x1024) S1x4x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512x256.size a ≤ S8x1024x256.size a
  hwx2_1 : ∀ i : grid2.Coords, EltTy.bits .bf16 = 32 ∨ (Rect.block (s := S8x1024x256) S1x512x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .bf16 = 32 ∨ (Rect.block (s := S256x256) S256x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4x256.size a ≤ S4x256.size a
  hwx2_3 : ∀ i : grid2.Coords, EltTy.bits .f32 = 32 ∨ (Rect.block (s := S4x256) S4x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x4096.size a ≤ S256x4096.size a
  hwx2_4 : ∀ i : grid2.Coords, EltTy.bits .bf16 = 32 ∨ (Rect.block (s := S256x4096) S256x4096.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S4096.size a ≤ S4096.size a
  hwx2_5 : ∀ i : grid2.Coords, EltTy.bits .f32 = 32 ∨ (Rect.block (s := S4096) S4096.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x512x4096.size a ≤ S8x1024x4096.size a
  hwx2_6 : ∀ i : grid2.Coords, EltTy.bits .f32 = 32 ∨ (Rect.block (s := S8x1024x4096) S1x512x4096.size (cc2_transform_6 i) (hinb2_6 i)).WholeWords (EltTy.packing .f32)

variable [Facts₀]

def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S4x256_S256x256_S4x256_1_1_0_0_n_n : DotDims S4x256 S256x256 S4x256 where
  lhsContracting := [1]
  rhsContracting := [1]
  lhsNonContracting := [0]
  rhsNonContracting := [0]
  lhsBatch := []
  rhsBatch := []
  wf := dot_S4x256_S256x256_S4x256_1_1_0_0_n_n_wf
def dot_S4x1024_S1024x1024_S4x1024_1_1_0_0_n_n : DotDims S4x1024 S1024x1024 S4x1024 where
  lhsContracting := [1]
  rhsContracting := [1]
  lhsNonContracting := [0]
  rhsNonContracting := [0]
  lhsBatch := []
  rhsBatch := []
  wf := dot_S4x1024_S1024x1024_S4x1024_1_1_0_0_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S4x512_S4x256_S512x256_0_0_1_1_n_n : DotDims S4x512 S4x256 S512x256 where
  lhsContracting := [0]
  rhsContracting := [0]
  lhsNonContracting := [1]
  rhsNonContracting := [1]
  lhsBatch := []
  rhsBatch := []
  wf := dot_S4x512_S4x256_S512x256_0_0_1_1_n_n_wf
def dot_S512x256_S256x4096_S512x4096_1_0_0_1_n_n : DotDims S512x256 S256x4096 S512x4096 where
  lhsContracting := [1]
  rhsContracting := [0]
  lhsNonContracting := [0]
  rhsNonContracting := [1]
  lhsBatch := []
  rhsBatch := []
  wf := dot_S512x256_S256x4096_S512x4096_1_0_0_1_n_n_wf

abbrev win0_0 : Pipeline.Window sig grid0 :=
  Pipeline.Window.ofSpec (Memref.whole main_v3) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S4x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23_0) S1x256x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v23_1) S1x4x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v23_1) S1x4x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x4x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v24) S1x4x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23_0) S1x512x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v22) S4x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11) S256x4096.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S4096.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v25) S1x512x4096.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S8x1x64x256x256 : Shape := ⟨5, ![8, 1, 64, 256, 256]⟩
abbrev S256x4096 : Shape := ⟨2, ![256, 4096]⟩
abbrev S256 : Shape := ⟨1, ![256]⟩
abbrev S1x1024x256 : Shape := ⟨3, ![1, 1024, 256]⟩
abbrev S256x256 : Shape := ⟨2, ![256, 256]⟩
abbrev S1024x1024 : Shape := ⟨2, ![1024, 1024]⟩
abbrev S4096x256 : Shape := ⟨2, ![4096, 256]⟩
abbrev S4096 : Shape := ⟨1, ![4096]⟩
abbrev S8x64x32x8x32x8 : Shape := ⟨6, ![8, 64, 32, 8, 32, 8]⟩
abbrev S8x32x32x64x8x8 : Shape := ⟨6, ![8, 32, 32, 64, 8, 8]⟩
abbrev S8x1024x4096 : Shape := ⟨3, ![8, 1024, 4096]⟩
abbrev S8x1024x256 : Shape := ⟨3, ![8, 1024, 256]⟩
abbrev S1x1x256 : Shape := ⟨3, ![1, 1, 256]⟩
abbrev S8x1024x4x64 : Shape := ⟨4, ![8, 1024, 4, 64]⟩
abbrev S8x4x1024x64 : Shape := ⟨4, ![8, 4, 1024, 64]⟩
abbrev S_ : Shape := ⟨0, ![]⟩
abbrev S8x4x1024 : Shape := ⟨3, ![8, 4, 1024]⟩
abbrev S8x4x1024x1 : Shape := ⟨4, ![8, 4, 1024, 1]⟩
abbrev S1x1x4096 : Shape := ⟨3, ![1, 1, 4096]⟩

abbrev nBuf : Space → Nat
  | .hbm => 50
  | .vmem => 0
  | .smem => 0
  | _ => 0

abbrev bufTy : (tb : Table) → Fin (tcTables nBuf tb) → BufTy
  | .hbm, ⟨0, _⟩ => ⟨S8x1x64x256x256, .f32⟩
  | .hbm, ⟨1, _⟩ => ⟨S256x4096, .f32⟩
  | .hbm, ⟨2, _⟩ => ⟨S256, .f32⟩
  | .hbm, ⟨3, _⟩ => ⟨S1x1024x256, .f32⟩
  | .hbm, ⟨4, _⟩ => ⟨S256x256, .f32⟩
  | .hbm, ⟨5, _⟩ => ⟨S1024x1024, .f32⟩
  | .hbm, ⟨6, _⟩ => ⟨S256x256, .f32⟩
  | .hbm, ⟨7, _⟩ => ⟨S4096x256, .f32⟩
  | .hbm, ⟨8, _⟩ => ⟨S4096, .f32⟩
  | .hbm, ⟨9, _⟩ => ⟨S8x64x32x8x32x8, .f32⟩
  | .hbm, ⟨10, _⟩ => ⟨S8x32x32x64x8x8, .f32⟩
  | .hbm, ⟨11, _⟩ => ⟨S8x1024x4096, .f32⟩
  | .hbm, ⟨12, _⟩ => ⟨S8x1024x256, .f32⟩
  | .hbm, ⟨13, _⟩ => ⟨S1x1x256, .f32⟩
  | .hbm, ⟨14, _⟩ => ⟨S8x1024x256, .f32⟩
  | .hbm, ⟨15, _⟩ => ⟨S8x1024x256, .f32⟩
  | .hbm, ⟨16, _⟩ => ⟨S8x1024x256, .f32⟩
  | .hbm, ⟨17, _⟩ => ⟨S8x1024x256, .f32⟩
  | .hbm, ⟨18, _⟩ => ⟨S8x1024x256, .f32⟩
  | .hbm, ⟨19, _⟩ => ⟨S8x1024x4x64, .f32⟩
  | .hbm, ⟨20, _⟩ => ⟨S8x4x1024x64, .f32⟩
  | .hbm, ⟨21, _⟩ => ⟨S_, .f32⟩
  | .hbm, ⟨22, _⟩ => ⟨S8x4x1024, .f32⟩
  | .hbm, ⟨23, _⟩ => ⟨S_, .f32⟩
  | .hbm, ⟨24, _⟩ => ⟨S8x4x1024, .f32⟩
  | .hbm, ⟨25, _⟩ => ⟨S8x4x1024, .f32⟩
  | .hbm, ⟨26, _⟩ => ⟨S8x4x1024, .f32⟩
  | .hbm, ⟨27, _⟩ => ⟨S8x4x1024, .f32⟩
  | .hbm, ⟨28, _⟩ => ⟨S8x4x1024, .f32⟩
  | .hbm, ⟨29, _⟩ => ⟨S_, .f32⟩
  | .hbm, ⟨30, _⟩ => ⟨S8x4x1024, .f32⟩
  | .hbm, ⟨31, _⟩ => ⟨S8x4x1024, .f32⟩
  | .hbm, ⟨32, _⟩ => ⟨S_, .f32⟩
  | .hbm, ⟨33, _⟩ => ⟨S8x4x1024, .f32⟩
  | .hbm, ⟨34, _⟩ => ⟨S8x4x1024, .f32⟩
  | .hbm, ⟨35, _⟩ => ⟨S8x1024x256, .f32⟩
  | .hbm, ⟨36, _⟩ => ⟨S8x1024x4x64, .f32⟩
  | .hbm, ⟨37, _⟩ => ⟨S8x4x1024x64, .f32⟩
  | .hbm, ⟨38, _⟩ => ⟨S8x4x1024x1, .f32⟩
  | .hbm, ⟨39, _⟩ => ⟨S8x4x1024x64, .f32⟩
  | .hbm, ⟨40, _⟩ => ⟨S8x4x1024x64, .f32⟩
  | .hbm, ⟨41, _⟩ => ⟨S8x1024x4x64, .f32⟩
  | .hbm, ⟨42, _⟩ => ⟨S8x1024x256, .f32⟩
  | .hbm, ⟨43, _⟩ => ⟨S8x1024x4096, .f32⟩
  | .hbm, ⟨44, _⟩ => ⟨S1x1x4096, .f32⟩
  | .hbm, ⟨45, _⟩ => ⟨S8x1024x4096, .f32⟩
  | .hbm, ⟨46, _⟩ => ⟨S8x1024x4096, .f32⟩
  | .hbm, ⟨47, _⟩ => ⟨S8x32x32x64x8x8, .f32⟩
  | .hbm, ⟨48, _⟩ => ⟨S8x64x32x8x32x8, .f32⟩
  | .hbm, ⟨49, _⟩ => ⟨S8x1x64x256x256, .f32⟩
  | _, _ => ⟨S8x1x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  shapeCasts_S8x1x64x256x256_S8x64x32x8x32x8 : S8x1x64x256x256.ShapeCasts S8x64x32x8x32x8
  transposes_S8x64x32x8x32x8_S8x32x32x64x8x8_0_2_4_1_3_5 : S8x64x32x8x32x8.Transposes [0, 2, 4, 1, 3, 5] S8x32x32x64x8x8
  shapeCasts_S8x32x32x64x8x8_S8x1024x4096 : S8x32x32x64x8x8.ShapeCasts S8x1024x4096
  bcast_S256_S1x1x256_2 : S256.BroadcastsInDim S1x1x256 (![2] : Fin 1 → Fin S1x1x256.rank)
  bcast_S1x1x256_S8x1024x256_0_1_2 : S1x1x256.BroadcastsInDim S8x1024x256 (![0, 1, 2] : Fin 3 → Fin S8x1024x256.rank)
  bcast_S1x1024x256_S8x1024x256_0_1_2 : S1x1024x256.BroadcastsInDim S8x1024x256 (![0, 1, 2] : Fin 3 → Fin S8x1024x256.rank)
  shapeCasts_S8x1024x256_S8x1024x4x64 : S8x1024x256.ShapeCasts S8x1024x4x64
  transposes_S8x1024x4x64_S8x4x1024x64_0_2_1_3 : S8x1024x4x64.Transposes [0, 2, 1, 3] S8x4x1024x64
  reducesTo_S8x4x1024x64_S8x4x1024_d3 : S8x4x1024x64.ReducesTo [3] S8x4x1024
  h_S_ : 0 < S_.numel
  bcast_S_S8x4x1024 : S_.BroadcastsInDim S8x4x1024 (![] : Fin 0 → Fin S8x4x1024.rank)
  bcast_S8x4x1024_S8x4x1024x1_0_1_2 : S8x4x1024.BroadcastsInDim S8x4x1024x1 (![0, 1, 2] : Fin 3 → Fin S8x4x1024x1.rank)
  bcast_S8x4x1024x1_S8x4x1024x64_0_1_2_3 : S8x4x1024x1.BroadcastsInDim S8x4x1024x64 (![0, 1, 2, 3] : Fin 4 → Fin S8x4x1024x64.rank)
  transposes_S8x4x1024x64_S8x1024x4x64_0_2_1_3 : S8x4x1024x64.Transposes [0, 2, 1, 3] S8x1024x4x64
  shapeCasts_S8x1024x4x64_S8x1024x256 : S8x1024x4x64.ShapeCasts S8x1024x256
  bcast_S4096_S1x1x4096_2 : S4096.BroadcastsInDim S1x1x4096 (![2] : Fin 1 → Fin S1x1x4096.rank)
  bcast_S1x1x4096_S8x1024x4096_0_1_2 : S1x1x4096.BroadcastsInDim S8x1024x4096 (![0, 1, 2] : Fin 3 → Fin S8x1024x4096.rank)
  shapeCasts_S8x1024x4096_S8x32x32x64x8x8 : S8x1024x4096.ShapeCasts S8x32x32x64x8x8
  transposes_S8x32x32x64x8x8_S8x64x32x8x32x8_0_3_1_4_2_5 : S8x32x32x64x8x8.Transposes [0, 3, 1, 4, 2, 5] S8x64x32x8x32x8
  shapeCasts_S8x64x32x8x32x8_S8x1x64x256x256 : S8x64x32x8x32x8.ShapeCasts S8x1x64x256x256
  dot_S8x1024x4096_S256x4096_S8x1024x256_2_1_01_0_n_n_wf : DotDims.WF S8x1024x4096 S256x4096 S8x1024x256 [2] [1] [0, 1] [0] [] []
  dot_S8x1024x256_S256x256_S8x1024x256_2_1_01_0_n_n_wf : DotDims.WF S8x1024x256 S256x256 S8x1024x256 [2] [1] [0, 1] [0] [] []
  dot_S8x4x1024_S1024x1024_S8x4x1024_2_1_01_0_n_n_wf : DotDims.WF S8x4x1024 S1024x1024 S8x4x1024 [2] [1] [0, 1] [0] [] []
  dot_S8x1024x256_S4096x256_S8x1024x4096_2_1_01_0_n_n_wf : DotDims.WF S8x1024x256 S4096x256 S8x1024x4096 [2] [1] [0, 1] [0] [] []

variable [Facts₀]

def dot_S8x1024x4096_S256x4096_S8x1024x256_2_1_01_0_n_n : DotDims S8x1024x4096 S256x4096 S8x1024x256 where
  lhsContracting := [2]
  rhsContracting := [1]
  lhsNonContracting := [0, 1]
  rhsNonContracting := [0]
  lhsBatch := []
  rhsBatch := []
  wf := dot_S8x1024x4096_S256x4096_S8x1024x256_2_1_01_0_n_n_wf
def dot_S8x1024x256_S256x256_S8x1024x256_2_1_01_0_n_n : DotDims S8x1024x256 S256x256 S8x1024x256 where
  lhsContracting := [2]
  rhsContracting := [1]
  lhsNonContracting := [0, 1]
  rhsNonContracting := [0]
  lhsBatch := []
  rhsBatch := []
  wf := dot_S8x1024x256_S256x256_S8x1024x256_2_1_01_0_n_n_wf
def dot_S8x4x1024_S1024x1024_S8x4x1024_2_1_01_0_n_n : DotDims S8x4x1024 S1024x1024 S8x4x1024 where
  lhsContracting := [2]
  rhsContracting := [1]
  lhsNonContracting := [0, 1]
  rhsNonContracting := [0]
  lhsBatch := []
  rhsBatch := []
  wf := dot_S8x4x1024_S1024x1024_S8x4x1024_2_1_01_0_n_n_wf
def dot_S8x1024x256_S4096x256_S8x1024x4096_2_1_01_0_n_n : DotDims S8x1024x256 S4096x256 S8x1024x4096 where
  lhsContracting := [2]
  rhsContracting := [1]
  lhsNonContracting := [0, 1]
  rhsNonContracting := [0]
  lhsBatch := []
  rhsBatch := []
  wf := dot_S8x1024x256_S4096x256_S8x1024x4096_2_1_01_0_n_n_wf

class Facts : Prop extends Facts₀ where

variable [Facts]
-- ==== Proof.KRun.lean ====
/-
  The idealized kernel program's run with EVERY unscoped buffer named at the end.

  The program is ten segments: six stretches of host operations, three pipelined kernels, one last stretch. The
  buffer contents at each boundary are a fold through the segments from the launch memory — a stretch applies its
  operations, a kernel leaves its windows' arrays at what its write-backs fold to — and the fold's last value is
  `W10`. Every weakly fair execution terminates, nothing faulting, with each buffer no kernel scopes at `W10`'s
  contents: the result buffer among them, and the nine arguments, which the fold leaves as launched.
-/
import proofs.«174765_j1992864825604_2_alg».proof.Proof.Gen.KernelIdeal.Frame

set_option maxRecDepth 16384

noncomputable section

namespace Cert.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting,
    and every final state holds, in each buffer outside the kernels' scopes, the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

end Cert.KRun

end
-- ==== Proof.Spec.lean ====
/-
  The function both programs compute, written once over plain coordinates.

  A batch of 8 images is cut into 1024 patches of 4096 numbers each (`P b n p`). Every patch is embedded into 256
  numbers, `emb b n d = ∑ p, P b n p · We d p + be d + pos n d`. From the embedding come a query `qfull = emb · Wqᵀ`,
  averaged over each of the 4 heads' 64 coordinates (`qmean`), a gate `σ (qmean · Wkᵀ)` over the patches of a head,
  and a value `emb · Wvᵀ`. The gate of a value's head multiplies the value, and the result goes through
  `· Woutᵀ + bout`.

  The two ways the head average and the head's gate are spelt — a product with a 0/1-weighted matrix on one side, a
  sum over the head's 64 coordinates divided by 64 and a plain lookup on the other — are joined here:
  `masked_mean` and `masked_pick`. Neither needs the summands to be finite: a zero weight kills an infinite entry
  (`0 · x = 0` on the extended reals), and a nonnegative real factor distributes over any sum of extended reals.
-/
import Idealize.ShloMosaic.PureOps.Ideal

noncomputable section

namespace Cert.Spec

open Idealize.ShloMosaic
open scoped BigOperators

/-! ## The three float words the programs spell -/

/-- `64.0` denotes the real 64. -/
theorem word_64 : Ideal.ofBits .f32 0x42800000#32 = ((64 : ℝ) : EReal) := by
  simp [Ideal.ofBits, Ideal.ieee, -EReal.coe_mul]; norm_num

/-- `0.015625` denotes the real 1/64. -/
theorem word_inv64 : Ideal.ofBits .f32 0x3C800000#32 = ((1 / 64 : ℝ) : EReal) := by
  simp [Ideal.ofBits, Ideal.ieee, -EReal.coe_mul]; norm_num

/-- `1.0` denotes 1. -/
theorem word_one : Ideal.ofBits .f32 0x3F800000#32 = 1 := by
  simp [Ideal.ofBits, Ideal.ieee, -EReal.coe_mul]; norm_num

/-- `+0.0` denotes 0. -/
theorem word_zero : Ideal.ofBits .f32 0x00000000#32 = 0 := by
  simp [Ideal.ofBits, Ideal.ieee]

/-! ## Heads -/

/-- Coordinate `j` of head `h` among the 256 embedding coordinates. -/
def hd (h : Fin 4) (j : Fin 64) : Fin 256 := ⟨64 * h.val + j.val, by omega⟩

/-- The head an embedding coordinate belongs to. -/
def headOf (e : Fin 256) : Fin 4 := ⟨e.val / 64, by omega⟩

/-- The coordinate's place inside its head. -/
def inHead (e : Fin 256) : Fin 64 := ⟨e.val % 64, by omega⟩

theorem headOf_hd (h : Fin 4) (j : Fin 64) : headOf (hd h j) = h := by
  apply Fin.ext; simp only [headOf, hd]; omega

theorem hd_headOf (e : Fin 256) : hd (headOf e) (inHead e) = e := by
  apply Fin.ext; simp only [headOf, hd, inHead]; omega

/-- The 256 coordinates are the 4 heads' 64 coordinates each. -/
def headEquiv : Fin 4 × Fin 64 ≃ Fin 256 where
  toFun x := hd x.1 x.2
  invFun e := (headOf e, inHead e)
  left_inv x := by
    refine Prod.ext (headOf_hd _ _) (Fin.ext ?_)
    simp only [inHead, hd]; omega
  right_inv e := hd_headOf e

/-! ## The two laws -/

/-- A nonnegative real factor goes inside any finite sum of extended reals. -/
theorem coe_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, EReal.left_distrib_of_nonneg_of_ne_top (EReal.coe_nonneg.mpr hc) (EReal.coe_ne_top c), ih]

/-- A product with a matrix that weighs head `h`'s coordinates by `c ≥ 0` and every other coordinate by `0`
    is `c` times the sum over the head's coordinates. -/
theorem masked_mean (c : ℝ) (hc : 0 ≤ c) (h : Fin 4) (f : Fin 256 → EReal) :
    (∑ e : Fin 256, (if headOf e = h then (c : EReal) else 0) * f e) = (c : EReal) * ∑ j : Fin 64, f (hd h j) := by
  rw [← Equiv.sum_comp headEquiv, Fintype.sum_prod_type, coe_mul_sum _ c hc]
  rw [Finset.sum_eq_single h]
  · refine Finset.sum_congr rfl fun j _ => ?_
    show (if headOf (hd h j) = h then (c : EReal) else 0) * f (hd h j) = _
    rw [if_pos (headOf_hd h j)]
  · intro h' _ hne
    refine Finset.sum_eq_zero fun j _ => ?_
    show (if headOf (hd h' j) = h then (c : EReal) else 0) * f (hd h' j) = 0
    rw [headOf_hd, if_neg hne, zero_mul]
  · intro hn; exact absurd (Finset.mem_univ h) hn

/-- A product over the 4 heads with the 0/1 matrix of "coordinate `e` lies in head `h`" picks the entry of `e`'s
    own head. -/
theorem masked_pick (e : Fin 256) (g : Fin 4 → EReal) :
    (∑ h : Fin 4, g h * (if headOf e = h then (1 : EReal) else 0)) = g (headOf e) := by
  rw [Finset.sum_eq_single (headOf e)]
  · rw [if_pos rfl, mul_one]
  · intro h _ hne
    rw [if_neg (Ne.symm hne), mul_zero]
  · intro hn; exact absurd (Finset.mem_univ _) hn

/-- Dividing by the word `64.0` is multiplying by the real 1/64, on every extended real. -/
theorem div_word_64 (x : EReal) : Ideal.div x (Ideal.ofBits .f32 0x42800000#32) = ((1 / 64 : ℝ) : EReal) * x := by
  rw [word_64, Ideal.div_coe (by norm_num : (64 : ℝ) ≠ 0), mul_comm]

/-! ## The function -/

section
variable (P : Fin 8 → Fin 1024 → Fin 4096 → EReal) (We : Fin 256 → Fin 4096 → EReal) (be : Fin 256 → EReal)
  (pos : Fin 1024 → Fin 256 → EReal) (Wq : Fin 256 → Fin 256 → EReal) (Wk : Fin 1024 → Fin 1024 → EReal)
  (Wv : Fin 256 → Fin 256 → EReal) (Wout : Fin 4096 → Fin 256 → EReal) (bout : Fin 4096 → EReal)

/-- The embedding of patch `n` of image `b`, coordinate `d`. -/
def emb (b : Fin 8) (n : Fin 1024) (d : Fin 256) : EReal := (∑ p : Fin 4096, P b n p * We d p) + be d + pos n d

/-- The query before the head average. -/
def qfull (b : Fin 8) (n : Fin 1024) (e : Fin 256) : EReal := ∑ d : Fin 256, emb P We be pos b n d * Wq e d

/-- The query averaged over head `h`'s 64 coordinates. -/
def qmean (b : Fin 8) (h : Fin 4) (n : Fin 1024) : EReal :=
  ((1 / 64 : ℝ) : EReal) * ∑ j : Fin 64, qfull P We be pos Wq b n (hd h j)

/-- The gate of patch `m` in head `h`. -/
def gate (b : Fin 8) (h : Fin 4) (m : Fin 1024) : EReal :=
  Ideal.logistic (∑ n : Fin 1024, qmean P We be pos Wq b h n * Wk m n)

/-- The value. -/
def value (b : Fin 8) (n : Fin 1024) (e : Fin 256) : EReal := ∑ d : Fin 256, emb P We be pos b n d * Wv e d

/-- The gated value. -/
def mixed (b : Fin 8) (n : Fin 1024) (e : Fin 256) : EReal :=
  gate P We be pos Wq Wk b (headOf e) n * value P We be pos Wv b n e

/-- The output patch. -/
def out (b : Fin 8) (n : Fin 1024) (p : Fin 4096) : EReal :=
  (∑ e : Fin 256, mixed P We be pos Wq Wk Wv b n e * Wout p e) + bout p

end

end Cert.Spec

end
-- ==== Proof.KHost.lean ====
/-
  The kernel program's host operations, read at an index.

  Before its first region the program cuts the batch of images into patches (a reshape, a transposition of the six
  block axes, a reshape), transposes four weight matrices, and builds two 4 × 256 tables from integer iotas: entry
  (h, e) asks whether embedding coordinate e lies in head h, that is whether e / 64 = h, and holds 1/64 (first
  table) or 1 (second table) where it does and 0 where it does not. After the last region the result patches are
  folded back into images by the inverse reshape, transposition, reshape. Rounding to a narrower float format is
  the identity on the extended reals, so each transposed weight is the argument read at the swapped index.
-/
import proofs.«174765_j1992864825604_2_alg».proof.Proof.Gen.KernelIdeal.Frame
import proofs.«174765_j1992864825604_2_alg».proof.Proof.Spec
import Idealize.ShloMosaic.Lib.StableHlo.Run
import Idealize.ShloMosaic.Lib.ValueIdx
import Idealize.ShloMosaic.Lib.Pipeline.Value
import Idealize.ShloMosaic.Lib.ValueLayout

noncomputable section

namespace Cert.KHost

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

def patchesK (x : (⟨S8x1x64x256x256, .f32⟩ : BufTy).Contents (Elt Ideal)) : (⟨S8x1024x4096, .f32⟩ : BufTy).Contents (Elt Ideal) :=
  shapeCast _ (transpose S8x32x32x64x8x8 [0, 2, 4, 1, 3, 5] (shapeCast _ x shapeCasts_S8x1x64x256x256_S8x64x32x8x32x8) transposes_S8x64x32x8x32x8_S8x32x32x64x8x8_0_2_4_1_3_5) shapeCasts_S8x32x32x64x8x8_S8x1024x4096

def foldK (y : (⟨S8x1024x4096, .f32⟩ : BufTy).Contents (Elt Ideal)) : (⟨S8x1x64x256x256, .f32⟩ : BufTy).Contents (Elt Ideal) :=
  shapeCast _ (transpose S8x64x32x8x32x8 [0, 3, 1, 4, 2, 5] (shapeCast _ y shapeCasts_S8x1024x4096_S8x32x32x64x8x8) transposes_S8x32x32x64x8x8_S8x64x32x8x32x8_0_3_1_4_2_5) shapeCasts_S8x64x32x8x32x8_S8x1x64x256x256

/-! ## The last three host operations: the result patches folded back into images -/

theorem fold_at : (W10 m ρ c (Proc.devRef .tc main_v28) : S8x1x64x256x256.Idx → EReal) = foldK (W9 m ρ c (Proc.devRef .tc main_v25)) := by
  dsimp only [Gen.W10, Gen.hostOps3]
  after_results
  rfl

/-! ## Stepping over a stretch of host operations that does not write a buffer -/

/-- The buffers the five stretches between the first one and the first region write. -/
def midWrites : List (Ref sig .tc) :=
  [main_call0_v0, main_call0_v1, main_call0_v2, main_call0_v3, main_call0_v4, main_call0_v5, main_call0_v6, main_call0_v7,
   main_call0_v8, main_call0_c, main_call0_v9, main_call0_v10, main_call0_v11, main_call0_c_0, main_call0_v12, main_call0_v13,
   main_v17, main_v18, main_v19, main_v20, main_cst, main_cst_0, main_call1_v0, main_call1_v1, main_v21, main_cst_1, main_cst_2,
   main_call2_v0, main_call2_v1, main_v22]

/-- A buffer none of those five stretches writes holds at the first region's entry what the first stretch left. -/
theorem V6_eq_W1 (r : Ref sig .tc) (hr : r ∉ midWrites) : W6 m ρ c (Proc.devRef .tc r) = W1 m ρ c (Proc.devRef .tc r) := by
  have step : ∀ (ops : List (HloOp τ sig (Elt Ideal))) (V : Valuation τ sig (Elt Ideal)),
      (ops.Forall fun op => op.writes ⊆ (midWrites.map (Proc.devRef (τ := τ) .tc)).toFinset) →
      StableHlo.after ops V (Proc.devRef .tc r) = V (Proc.devRef .tc r) :=
    fun ops V h => StableHlo.after_of_writes_sub ops V h hr
  calc W6 m ρ c (Proc.devRef .tc r)
    _ = W5 m ρ c (Proc.devRef .tc r) := step _ _ (by
          simp only [hostOps0_5, List.Forall, StableHlo.nullary_writes, StableHlo.unary_writes, StableHlo.binary_writes, StableHlo.ternary_writes]
          repeat' apply And.intro
          all_goals exact Finset.singleton_subset_iff.mpr (List.mem_toFinset.mpr (List.mem_map_of_mem (by decide))))
    _ = W4 m ρ c (Proc.devRef .tc r) := step _ _ (by
          simp only [hostOps0_4, List.Forall, StableHlo.nullary_writes, StableHlo.unary_writes, StableHlo.binary_writes, StableHlo.ternary_writes]
          repeat' apply And.intro
          all_goals exact Finset.singleton_subset_iff.mpr (List.mem_toFinset.mpr (List.mem_map_of_mem (by decide))))
    _ = W3 m ρ c (Proc.devRef .tc r) := step _ _ (by
          simp only [hostOps0_3, List.Forall, StableHlo.nullary_writes, StableHlo.unary_writes, StableHlo.binary_writes, StableHlo.ternary_writes]
          repeat' apply And.intro
          all_goals exact Finset.singleton_subset_iff.mpr (List.mem_toFinset.mpr (List.mem_map_of_mem (by decide))))
    _ = W2 m ρ c (Proc.devRef .tc r) := step _ _ (by
          simp only [hostOps0_2, List.Forall, StableHlo.nullary_writes, StableHlo.unary_writes, StableHlo.binary_writes, StableHlo.ternary_writes]
          repeat' apply And.intro
          all_goals exact Finset.singleton_subset_iff.mpr (List.mem_toFinset.mpr (List.mem_map_of_mem (by decide))))
    _ = W1 m ρ c (Proc.devRef .tc r) := step _ _ (by
          simp only [hostOps0_1, List.Forall, StableHlo.nullary_writes, StableHlo.unary_writes, StableHlo.binary_writes, StableHlo.ternary_writes]
          repeat' apply And.intro
          all_goals exact Finset.singleton_subset_iff.mpr (List.mem_toFinset.mpr (List.mem_map_of_mem (by decide))))

/-- The buffers the first stretch of host operations writes. -/
def firstWrites : List (Ref sig .tc) :=
  [main_v0, main_v1, main_v2, main_v3, main_v4, main_v5, main_v6, main_v7, main_v8, main_v9, main_v10, main_v11, main_v12,
   main_v13, main_v14, main_v15, main_v16, main_c]

/-- A buffer the first stretch does not write holds after it what it held at launch. -/
theorem W1_eq_launch (r : Ref sig .tc) (hr : r ∉ firstWrites) : W1 m ρ c (Proc.devRef .tc r) = m ((c.tc : Thread nD τ).loc r) :=
  (StableHlo.after_of_writes_sub (W := firstWrites) _ _ (by
      simp only [hostOps0, List.Forall, StableHlo.nullary_writes, StableHlo.unary_writes, StableHlo.reshape_writes]
      repeat' apply And.intro
      all_goals exact Finset.singleton_subset_iff.mpr (List.mem_toFinset.mpr (List.mem_map_of_mem (by decide)))) hr).trans rfl

/-! ## The first stretch: the images cut into patches, the weights transposed -/

theorem patches_at (i : S8x1024x4096.Idx) : (V6 m ρ c main_v3 : S8x1024x4096.Idx → EReal) i = patchesK (m ((c.tc : Thread nD τ).loc main_arg0)) i := by
  have e : (V6 m ρ c main_v3 : S8x1024x4096.Idx → EReal) = patchesK (m ((c.tc : Thread nD τ).loc main_arg0)) := by
    show (W6 m ρ c (Proc.devRef .tc main_v3) : S8x1024x4096.Idx → EReal) = _
    rw [V6_eq_W1 m ρ c main_v3 (by decide)]
    dsimp only [Gen.W1, Gen.hostOps0]
    after_results
    rfl
  rw [e]

theorem wembT_at (p : Fin 4096) (d : Fin 256) : (V6 m ρ c main_v5 : S4096x256.Idx → EReal) (ix2 p d) = (m ((c.tc : Thread nD τ).loc main_arg1) : S256x4096.Idx → EReal) (ix2 d p) := by
  show (W6 m ρ c (Proc.devRef .tc main_v5) : S4096x256.Idx → EReal) (ix2 p d) = _
  rw [V6_eq_W1 m ρ c main_v5 (by decide)]
  dsimp only [Gen.W1, Gen.hostOps0]
  after_results
  exact transpose_apply [1, 0] _ transposes_S256x4096_S4096x256_1_0 (ix2 p d) (ix2 d p) (fun b => match b with
    | ⟨0, _⟩ => rfl
    | ⟨1, _⟩ => rfl)

theorem wqT_at (d e : Fin 256) : (V6 m ρ c main_v7 : S256x256.Idx → EReal) (ix2 d e) = (m ((c.tc : Thread nD τ).loc main_arg4) : S256x256.Idx → EReal) (ix2 e d) := by
  show (W6 m ρ c (Proc.devRef .tc main_v7) : S256x256.Idx → EReal) (ix2 d e) = _
  rw [V6_eq_W1 m ρ c main_v7 (by decide)]
  dsimp only [Gen.W1, Gen.hostOps0]
  after_results
  exact transpose_apply [1, 0] _ transposes_S256x256_S256x256_1_0 (ix2 d e) (ix2 e d) (fun b => match b with
    | ⟨0, _⟩ => rfl
    | ⟨1, _⟩ => rfl)

theorem wvT_at (d e : Fin 256) : (V6 m ρ c main_v9 : S256x256.Idx → EReal) (ix2 d e) = (m ((c.tc : Thread nD τ).loc main_arg6) : S256x256.Idx → EReal) (ix2 e d) := by
  show (W6 m ρ c (Proc.devRef .tc main_v9) : S256x256.Idx → EReal) (ix2 d e) = _
  rw [V6_eq_W1 m ρ c main_v9 (by decide)]
  dsimp only [Gen.W1, Gen.hostOps0]
  after_results
  exact transpose_apply [1, 0] _ transposes_S256x256_S256x256_1_0 (ix2 d e) (ix2 e d) (fun b => match b with
    | ⟨0, _⟩ => rfl
    | ⟨1, _⟩ => rfl)

theorem woutT_at (e : Fin 256) (p : Fin 4096) : (V6 m ρ c main_v11 : S256x4096.Idx → EReal) (ix2 e p) = (m ((c.tc : Thread nD τ).loc main_arg7) : S4096x256.Idx → EReal) (ix2 p e) := by
  show (W6 m ρ c (Proc.devRef .tc main_v11) : S256x4096.Idx → EReal) (ix2 e p) = _
  rw [V6_eq_W1 m ρ c main_v11 (by decide)]
  dsimp only [Gen.W1, Gen.hostOps0]
  after_results
  exact transpose_apply [1, 0] _ transposes_S4096x256_S256x4096_1_0 (ix2 e p) (ix2 p e) (fun b => match b with
    | ⟨0, _⟩ => rfl
    | ⟨1, _⟩ => rfl)

theorem wk_at (i : S1024x1024.Idx) : (V6 m ρ c main_v12 : S1024x1024.Idx → EReal) i = (m ((c.tc : Thread nD τ).loc main_arg5) : S1024x1024.Idx → EReal) i := by
  show (W6 m ρ c (Proc.devRef .tc main_v12) : S1024x1024.Idx → EReal) i = _
  rw [V6_eq_W1 m ρ c main_v12 (by decide)]
  dsimp only [Gen.W1, Gen.hostOps0]
  after_results
  rfl

/-! ## No host operation writes an argument -/

theorem arg_at2 : V6 m ρ c main_arg2 = m ((c.tc : Thread nD τ).loc main_arg2) :=
  (V6_eq_W1 m ρ c main_arg2 (by decide)).trans (W1_eq_launch m ρ c main_arg2 (by decide))

theorem arg_at3 : V6 m ρ c main_arg3 = m ((c.tc : Thread nD τ).loc main_arg3) :=
  (V6_eq_W1 m ρ c main_arg3 (by decide)).trans (W1_eq_launch m ρ c main_arg3 (by decide))

theorem arg_at8 : V6 m ρ c main_arg8 = m ((c.tc : Thread nD τ).loc main_arg8) :=
  (V6_eq_W1 m ρ c main_arg8 (by decide)).trans (W1_eq_launch m ρ c main_arg8 (by decide))

/-! ## The two head tables -/

/-- Each operation of a stretch writes a buffer of the list `W`. -/
macro "writes_listed" : tactic => `(tactic| (
  simp only [hostOps0_1, hostOps0_2, hostOps0_3, hostOps0_4, hostOps0_5, List.Forall, StableHlo.nullary_writes, StableHlo.unary_writes,
    StableHlo.binary_writes, StableHlo.ternary_writes]
  repeat' apply And.intro
  all_goals exact Finset.singleton_subset_iff.mpr (List.mem_toFinset.mpr (List.mem_map_of_mem (by decide)))))

/-- A buffer the floor division does not write keeps its contents over it. -/
theorem W2_eq_W1 (r : Ref sig .tc)
    (hr : r ∉ [main_call0_v0, main_call0_v1, main_call0_v2, main_call0_v3, main_call0_v4, main_call0_v5, main_call0_v6, main_call0_v7,
      main_call0_v8, main_call0_c, main_call0_v9, main_call0_v10, main_call0_v11, main_call0_c_0, main_call0_v12, main_call0_v13, main_v17]) :
    W2 m ρ c (Proc.devRef .tc r) = W1 m ρ c (Proc.devRef .tc r) :=
  StableHlo.after_of_writes_sub _ _ (by writes_listed) hr

theorem W4_eq_W3 (r : Ref sig .tc) (hr : r ∉ [main_call1_v0, main_call1_v1, main_v21]) :
    W4 m ρ c (Proc.devRef .tc r) = W3 m ρ c (Proc.devRef .tc r) :=
  StableHlo.after_of_writes_sub _ _ (by writes_listed) hr

theorem W5_eq_W4 (r : Ref sig .tc) (hr : r ∉ [main_cst_1, main_cst_2]) :
    W5 m ρ c (Proc.devRef .tc r) = W4 m ρ c (Proc.devRef .tc r) :=
  StableHlo.after_of_writes_sub _ _ (by writes_listed) hr

theorem W6_eq_W5 (r : Ref sig .tc) (hr : r ∉ [main_call2_v0, main_call2_v1, main_v22]) :
    W6 m ρ c (Proc.devRef .tc r) = W5 m ρ c (Proc.devRef .tc r) :=
  StableHlo.after_of_writes_sub _ _ (by writes_listed) hr

/-- The sign of a 32-bit word as a word: 0, -1 or 1. -/
def signWord (x : BitVec 32) : BitVec 32 := if x = 0 then 0 else if x.msb then -1 else 1

/-- The floor of `x / 64` on 32-bit words as the program spells it: the quotient rounded toward zero, less one when
    dividend and divisor differ in sign and the remainder is not zero. -/
def floorDiv64 (x : BitVec 32) : BitVec 32 :=
  Scalar.select
    (IntOp.andi (IntOp.cmpi .ne (signWord x) (signWord 64#32)) (IntOp.cmpi .ne (IntOp.remsi .host x 64#32) 0#32))
    (IntOp.subi (IntOp.divsi .host x 64#32) 1#32) (IntOp.divsi .host x 64#32)

/-- On the words of 0 … 255 that floor division agrees with the head of a coordinate: comparing it with the word of
    `h` answers whether the coordinate lies in head `h`. -/
theorem headWord (e : Fin 256) (h : Fin 4) :
    IntOp.cmpi .eq (floorDiv64 (BitVec.ofNat 32 e.val)) (BitVec.ofNat 32 h.val) = if Cert.Spec.headOf e = h then 1#1 else 0#1 := by
  revert e h
  decide +kernel

/-- The column iota broadcast to one row reads the column's word. -/
theorem v16_at (e : Fin 256) : (W1 m ρ c (Proc.devRef .tc main_v16) : S1x256.Idx → BitVec 32) (ix2 0 e) = BitVec.ofNat 32 e.val := by
  dsimp only [Gen.W1, Gen.hostOps0]
  after_results
  rfl

/-- The row iota broadcast to one column reads the row's word. -/
theorem v14_at (h : Fin 4) : (W1 m ρ c (Proc.devRef .tc main_v14) : S4x1.Idx → BitVec 32) (ix2 h 0) = BitVec.ofNat 32 h.val := by
  dsimp only [Gen.W1, Gen.hostOps0]
  after_results
  rfl

theorem c64_eq : W1 m ρ c (Proc.devRef .tc main_c) = constantI S_ 32 64#32 := by
  dsimp only [Gen.W1, Gen.hostOps0]
  after_results

/-- The outlined floor division from any contents `V` that hold the word 64 in the divisor's buffer: at each index, the
    floor division of the dividend's word. -/
theorem floorDiv_after (V : Valuation τ sig (Elt Ideal)) (hc : V (Proc.devRef .tc main_c) = constantI S_ 32 64#32) (j : S1x256.Idx) :
    (StableHlo.after hostOps0_1 V (Proc.devRef .tc main_v17) : S1x256.Idx → BitVec 32) j
      = floorDiv64 ((V (Proc.devRef .tc main_v16) : S1x256.Idx → BitVec 32) j) := by
  dsimp only [Gen.hostOps0_1]
  after_results_simp
  rw [hc]
  dsimp only [StableHlo.TRef.toBuf, StableHlo.TRef.ofBuf, cast_eq, id]
  rfl

/-- The outlined floor division, at a column. -/
theorem v17_at (e : Fin 256) : (W2 m ρ c (Proc.devRef .tc main_v17) : S1x256.Idx → BitVec 32) (ix2 0 e) = floorDiv64 (BitVec.ofNat 32 e.val) :=
  (floorDiv_after (W1 m ρ c) (c64_eq m ρ c) (ix2 0 e)).trans (congrArg floorDiv64 (v16_at m ρ c e))

/-- The head test from any contents `V`: the comparison of the two broadcasts. -/
theorem headTest_after (V : Valuation τ sig (Elt Ideal)) (j : S4x256.Idx) :
    (StableHlo.after hostOps0_2 V (Proc.devRef .tc main_v20) : S4x256.Idx → BitVec 1) j
      = IntOp.cmpi .eq
          (broadcastInDim (α := BitVec 32) S4x256 ![0, 1] bcast_S1x256_S4x256_0_1 (V (Proc.devRef .tc main_v17)) j)
          (broadcastInDim (α := BitVec 32) S4x256 ![0, 1] bcast_S4x1_S4x256_0_1 (V (Proc.devRef .tc main_v14)) j) := by
  dsimp only [Gen.hostOps0_2]
  after_results
  rfl

/-- Entry (h, e) of the head test: whether coordinate `e` lies in head `h`. -/
theorem v20_at (h : Fin 4) (e : Fin 256) :
    (W3 m ρ c (Proc.devRef .tc main_v20) : S4x256.Idx → BitVec 1) (ix2 h e) = if Cert.Spec.headOf e = h then 1#1 else 0#1 := by
  refine (headTest_after (W2 m ρ c) (ix2 h e)).trans ?_
  rw [broadcastInDim_apply ![0, 1] bcast_S1x256_S4x256_0_1 _ (ix2 h e) (ix2 0 e) (fun a => match a with
        | ⟨0, _⟩ => rfl
        | ⟨1, _⟩ => rfl),
      broadcastInDim_apply ![0, 1] bcast_S4x1_S4x256_0_1 _ (ix2 h e) (ix2 h 0) (fun a => match a with
        | ⟨0, _⟩ => rfl
        | ⟨1, _⟩ => rfl),
      v17_at, W2_eq_W1 m ρ c main_v14 (by decide), v14_at]
  exact headWord e h

theorem cst_eq : W3 m ρ c (Proc.devRef .tc main_cst) = constant (F := Ideal) S_ .f32 0x3C800000#32 := by
  dsimp only [Gen.W3, Gen.hostOps0_2]
  after_results

theorem cst_0_eq : W3 m ρ c (Proc.devRef .tc main_cst_0) = constant (F := Ideal) S_ .f32 0x00000000#32 := by
  dsimp only [Gen.W3, Gen.hostOps0_2]
  after_results

theorem cst_1_eq : W5 m ρ c (Proc.devRef .tc main_cst_1) = constant (F := Ideal) S_ .f32 0x3F800000#32 := by
  dsimp only [Gen.W5, Gen.hostOps0_4]
  after_results

theorem cst_2_eq : W5 m ρ c (Proc.devRef .tc main_cst_2) = constant (F := Ideal) S_ .f32 0x00000000#32 := by
  dsimp only [Gen.W5, Gen.hostOps0_4]
  after_results

/-- The first selection between two broadcast scalars, from any contents `V` that hold the two scalars' words. -/
theorem where1_after (V : Valuation τ sig (Elt Ideal)) (a b : BitVec 32)
    (ha : V (Proc.devRef .tc main_cst) = constant (F := Ideal) S_ .f32 a) (hb : V (Proc.devRef .tc main_cst_0) = constant (F := Ideal) S_ .f32 b)
    (j : S4x256.Idx) :
    (StableHlo.after hostOps0_3 V (Proc.devRef .tc main_v21) : S4x256.Idx → EReal) j
      = Scalar.select ((V (Proc.devRef .tc main_v20) : S4x256.Idx → BitVec 1) j) (Ideal.ofBits .f32 a) (Ideal.ofBits .f32 b) := by
  dsimp only [Gen.hostOps0_3]
  after_results
  rw [ha, hb]
  dsimp only [StableHlo.TRef.toBuf, StableHlo.TRef.ofBuf, cast_eq, id]
  rfl

/-- The second selection, likewise. -/
theorem where2_after (V : Valuation τ sig (Elt Ideal)) (a b : BitVec 32)
    (ha : V (Proc.devRef .tc main_cst_1) = constant (F := Ideal) S_ .f32 a) (hb : V (Proc.devRef .tc main_cst_2) = constant (F := Ideal) S_ .f32 b)
    (j : S4x256.Idx) :
    (StableHlo.after hostOps0_5 V (Proc.devRef .tc main_v22) : S4x256.Idx → EReal) j
      = Scalar.select ((V (Proc.devRef .tc main_v20) : S4x256.Idx → BitVec 1) j) (Ideal.ofBits .f32 a) (Ideal.ofBits .f32 b) := by
  dsimp only [Gen.hostOps0_5]
  after_results
  rw [ha, hb]
  dsimp only [StableHlo.TRef.toBuf, StableHlo.TRef.ofBuf, cast_eq, id]
  rfl

/-- A selection on the head test's bit is the selection on the test itself. -/
theorem select_headBit {α : Type} (P : Prop) [Decidable P] (x y : α) :
    Scalar.select (if P then 1#1 else 0#1) x y = if P then x else y := by
  by_cases hP : P
  · rw [if_pos hP, if_pos hP]; exact select_one x y
  · rw [if_neg hP, if_neg hP]; exact select_zero x y

theorem mavg_at (h : Fin 4) (e : Fin 256) : (V6 m ρ c main_v21 : S4x256.Idx → EReal) (ix2 h e) = if Cert.Spec.headOf e = h then Ideal.ofBits .f32 0x3C800000#32 else Ideal.ofBits .f32 0x00000000#32 := by
  show (W6 m ρ c (Proc.devRef .tc main_v21) : S4x256.Idx → EReal) (ix2 h e) = _
  rw [W6_eq_W5 m ρ c main_v21 (by decide), W5_eq_W4 m ρ c main_v21 (by decide)]
  refine (where1_after (W3 m ρ c) _ _ (cst_eq m ρ c) (cst_0_eq m ρ c) (ix2 h e)).trans ?_
  rw [v20_at]
  exact select_headBit _ _ _

theorem rexp_at (h : Fin 4) (e : Fin 256) : (V6 m ρ c main_v22 : S4x256.Idx → EReal) (ix2 h e) = if Cert.Spec.headOf e = h then Ideal.ofBits .f32 0x3F800000#32 else Ideal.ofBits .f32 0x00000000#32 := by
  show (W6 m ρ c (Proc.devRef .tc main_v22) : S4x256.Idx → EReal) (ix2 h e) = _
  refine (where2_after (W5 m ρ c) _ _ (cst_1_eq m ρ c) (cst_2_eq m ρ c) (ix2 h e)).trans ?_
  rw [W5_eq_W4 m ρ c main_v20 (by decide), W4_eq_W3 m ρ c main_v20 (by decide), v20_at]
  exact select_headBit _ _ _

end Cert.KHost
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.LibRowsDot.lean ====
/-
  A matrix product against a transposed right operand, read at an index.

  The dimension numbers of `[a, K] × [b, K] → [a, b]` — contract the left operand's axis 1 with the right operand's axis 1, no
  batch axis — are those of `q · kᵀ` written without a transpose. On the extended reals the product, read at `(p, q)`, is the
  sum over `k` of `l (p, k) · r (q, k)`: row `p` of the left operand against row `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with rows `[a, K] × [b, K] → [a, b]`, over any witness of their
    well-formedness. -/
abbrev rowsDot (wf : DotDims.WF ⟨2, ![a, K]⟩ ⟨2, ![b, K]⟩ ⟨2, ![a, b]⟩ [1] [1] [0] [0] [] []) :
    DotDims ⟨2, ![a, K]⟩ ⟨2, ![b, K]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, K]⟩ ⟨2, ![b, K]⟩ ⟨2, ![a, b]⟩ [1] [1] [0] [0] [] [])

/-- Off the contracted axis the left operand is read at the result's row, -/
theorem rowsDot_lhs_row (i : (⟨2, ![a, b]⟩ : Shape).Idx) (κ : (rowsDot wf).contr.Idx) :
    ((rowsDot wf).lhsIdx i κ 0).val = (i 0).val := by
  unfold DotDims.lhsIdx
  rw [dif_neg (show ¬(0 : Fin (Shape.rank ⟨2, ![a, K]⟩)) ∈ (rowsDot wf).lhsBatch from List.not_mem_nil),
    dif_pos (show (0 : Fin (Shape.rank ⟨2, ![a, K]⟩)) ∈ (rowsDot wf).lhsNonContracting from List.mem_singleton.mpr rfl)]
  rfl

/-- and the right operand at the row the result's column names. -/
theorem rowsDot_rhs_row (i : (⟨2, ![a, b]⟩ : Shape).Idx) (κ : (rowsDot wf).contr.Idx) :
    ((rowsDot wf).rhsIdx i κ 0).val = (i 1).val := by
  unfold DotDims.rhsIdx
  rw [dif_neg (show ¬(0 : Fin (Shape.rank ⟨2, ![b, K]⟩)) ∈ (rowsDot wf).rhsBatch from List.not_mem_nil),
    dif_pos (show (0 : Fin (Shape.rank ⟨2, ![b, K]⟩)) ∈ (rowsDot wf).rhsNonContracting from List.mem_singleton.mpr rfl)]
  rfl

/-- At result index `(p, q)` and contraction position `k` the left operand is read at `(p, k)`. -/
theorem rowsDot_lhsIdx (p : Fin a) (q : Fin b) (k : Fin K) :
    (rowsDot wf).lhsIdx (ix2 p q) ((contrEquiv1 (rowsDot wf) K rfl rfl).symm k) = ix2 p k :=
  funext fun ax => Fin.ext (by
    match ax with
    | ⟨0, _⟩ => exact rowsDot_lhs_row wf _ _
    | ⟨1, _⟩ =>
      exact ((rowsDot wf).lhsIdx_val_of_single rfl _ _).trans (contrEquiv1_symm_val (rowsDot wf) K rfl rfl k))

/-- … and the right operand at `(q, k)`. -/
theorem rowsDot_rhsIdx (p : Fin a) (q : Fin b) (k : Fin K) :
    (rowsDot wf).rhsIdx (ix2 p q) ((contrEquiv1 (rowsDot wf) K rfl rfl).symm k) = ix2 q k :=
  funext fun ax => Fin.ext (by
    match ax with
    | ⟨0, _⟩ => exact rowsDot_rhs_row wf _ _
    | ⟨1, _⟩ =>
      exact ((rowsDot wf).rhsIdx_val_of_single rfl _ _).trans (contrEquiv1_symm_val (rowsDot wf) K rfl rfl k))

/-- The contraction of a product of rows with rows at `(p, q)`, re-indexed by the contracted coordinate. -/
theorem rowsDot_sum {φ₁ φ₂ : FTy} (l : FVec Ideal ⟨2, ![a, K]⟩ φ₁) (r : FVec Ideal ⟨2, ![b, K]⟩ φ₂) (p : Fin a) (q : Fin b) :
    (∑ k : (rowsDot wf).contr.Idx, l ((rowsDot wf).lhsIdx (ix2 p q) k) * r ((rowsDot wf).rhsIdx (ix2 p q) k))
      = ∑ k : Fin K, l (ix2 p k) * r (ix2 q k) := by
  rw [← Equiv.sum_comp (contrEquiv1 (rowsDot wf) K rfl rfl).symm]
  refine Finset.sum_congr rfl fun k _ => ?_
  rw [rowsDot_lhsIdx, rowsDot_rhsIdx]

/-- A `tpu.matmul` of rows with rows at `(p, q)`: the accumulator's entry plus the row-by-row sum. -/
theorem matmul_rows_apply {φ₁ φ₂ : FTy} (prec : Option ContractPrecision) (l : FVec Ideal ⟨2, ![a, K]⟩ φ₁)
    (r : FVec Ideal ⟨2, ![b, K]⟩ φ₂) (acc : FVec Ideal ⟨2, ![a, b]⟩ .f32) (p : Fin a) (q : Fin b) :
    FloatOps.matmul (rowsDot wf) prec l r acc (ix2 p q) = acc (ix2 p q) + ∑ k : Fin K, l (ix2 p k) * r (ix2 q k) := by
  rw [Ideal.matmul_apply, rowsDot_sum]

/-- Into the zero accumulator: the row-by-row sum alone. -/
theorem matmul_rows_zero_apply {φ₁ φ₂ : FTy} (prec : Option ContractPrecision) (l : FVec Ideal ⟨2, ![a, K]⟩ φ₁)
    (r : FVec Ideal ⟨2, ![b, K]⟩ φ₂) (p : Fin a) (q : Fin b) :
    FloatOps.matmul (rowsDot wf) prec l r (constant ⟨2, ![a, b]⟩ .f32 0x00000000#32) (ix2 p q)
      = ∑ k : Fin K, l (ix2 p k) * r (ix2 q k) := by
  rw [Ideal.matmul_constant_zero_apply, rowsDot_sum]

/-- The host's `dot_general` of rows with rows at `(p, q)`: the same sum. -/
theorem dotGeneral_rows_apply {φ₁ φ₂ : FTy} (prec : Option ContractPrecision) (sched : HostSchedule)
    (l : FVec Ideal ⟨2, ![a, K]⟩ φ₁) (r : FVec Ideal ⟨2, ![b, K]⟩ φ₂) (p : Fin a) (q : Fin b) :
    FloatOps.dotGeneral (rowsDot wf) prec sched l r (ix2 p q) = ∑ k : Fin K, l (ix2 p k) * r (ix2 q k) := by
  rw [Ideal.dotGeneral_apply, rowsDot_sum]

end Cert.Lib

end
-- ==== Proof.LibColsDot.lean ====
/-
  A matrix product against a transposed left operand, read at an index.

  The dimension numbers of `[K, a] × [K, b] → [a, b]` — contract the left operand's axis 0 with the right operand's axis 0, no
  batch axis — are those of `lᵀ · r` written without a transpose. On the extended reals the product, read at `(p, q)`, is the
  sum over `k` of `l (k, p) · r (k, q)`: column `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of columns with columns `[K, a] × [K, b] → [a, b]`, over any witness of their
    well-formedness. -/
abbrev colsDot (wf : DotDims.WF ⟨2, ![K, a]⟩ ⟨2, ![K, b]⟩ ⟨2, ![a, b]⟩ [0] [0] [1] [1] [] []) :
    DotDims ⟨2, ![K, a]⟩ ⟨2, ![K, b]⟩ ⟨2, ![a, b]⟩ where
  lhsContracting := [0]
  rhsContracting := [0]
  lhsNonContracting := [1]
  rhsNonContracting := [1]
  lhsBatch := []
  rhsBatch := []
  wf := wf

variable (wf : DotDims.WF ⟨2, ![K, a]⟩ ⟨2, ![K, b]⟩ ⟨2, ![a, b]⟩ [0] [0] [1] [1] [] [])

/-- Off the contracted axis the left operand is read at the column the result's row names, -/
theorem colsDot_lhs_col (i : (⟨2, ![a, b]⟩ : Shape).Idx) (κ : (colsDot wf).contr.Idx) :
    ((colsDot wf).lhsIdx i κ 1).val = (i 0).val := by
  unfold DotDims.lhsIdx
  rw [dif_neg (show ¬(1 : Fin (Shape.rank ⟨2, ![K, a]⟩)) ∈ (colsDot wf).lhsBatch from List.not_mem_nil),
    dif_pos (show (1 : Fin (Shape.rank ⟨2, ![K, a]⟩)) ∈ (colsDot wf).lhsNonContracting from List.mem_singleton.mpr rfl)]
  rfl

/-- and the right operand at the result's column. -/
theorem colsDot_rhs_col (i : (⟨2, ![a, b]⟩ : Shape).Idx) (κ : (colsDot wf).contr.Idx) :
    ((colsDot wf).rhsIdx i κ 1).val = (i 1).val := by
  unfold DotDims.rhsIdx
  rw [dif_neg (show ¬(1 : Fin (Shape.rank ⟨2, ![K, b]⟩)) ∈ (colsDot wf).rhsBatch from List.not_mem_nil),
    dif_pos (show (1 : Fin (Shape.rank ⟨2, ![K, b]⟩)) ∈ (colsDot wf).rhsNonContracting from List.mem_singleton.mpr rfl)]
  rfl

/-- At result index `(p, q)` and contraction position `k` the left operand is read at `(k, p)`. -/
theorem colsDot_lhsIdx (p : Fin a) (q : Fin b) (k : Fin K) :
    (colsDot wf).lhsIdx (ix2 p q) ((contrEquiv1 (colsDot wf) K rfl rfl).symm k) = ix2 k p :=
  funext fun ax => Fin.ext (by
    match ax with
    | ⟨0, _⟩ =>
      exact ((colsDot wf).lhsIdx_val_of_single rfl _ _).trans (contrEquiv1_symm_val (colsDot wf) K rfl rfl k)
    | ⟨1, _⟩ => exact colsDot_lhs_col wf _ _)

/-- … and the right operand at `(k, q)`. -/
theorem colsDot_rhsIdx (p : Fin a) (q : Fin b) (k : Fin K) :
    (colsDot wf).rhsIdx (ix2 p q) ((contrEquiv1 (colsDot wf) K rfl rfl).symm k) = ix2 k q :=
  funext fun ax => Fin.ext (by
    match ax with
    | ⟨0, _⟩ =>
      exact ((colsDot wf).rhsIdx_val_of_single rfl _ _).trans (contrEquiv1_symm_val (colsDot wf) K rfl rfl k)
    | ⟨1, _⟩ => exact colsDot_rhs_col wf _ _)

/-- The contraction of a product of columns with columns at `(p, q)`, re-indexed by the contracted coordinate. -/
theorem colsDot_sum {φ₁ φ₂ : FTy} (l : FVec Ideal ⟨2, ![K, a]⟩ φ₁) (r : FVec Ideal ⟨2, ![K, b]⟩ φ₂) (p : Fin a) (q : Fin b) :
    (∑ k : (colsDot wf).contr.Idx, l ((colsDot wf).lhsIdx (ix2 p q) k) * r ((colsDot wf).rhsIdx (ix2 p q) k))
      = ∑ k : Fin K, l (ix2 k p) * r (ix2 k q) := by
  rw [← Equiv.sum_comp (contrEquiv1 (colsDot wf) K rfl rfl).symm]
  refine Finset.sum_congr rfl fun k _ => ?_
  rw [colsDot_lhsIdx, colsDot_rhsIdx]

/-- A `tpu.matmul` of columns with columns at `(p, q)`: the accumulator's entry plus the column-by-column sum. -/
theorem matmul_cols_apply {φ₁ φ₂ : FTy} (prec : Option ContractPrecision) (l : FVec Ideal ⟨2, ![K, a]⟩ φ₁)
    (r : FVec Ideal ⟨2, ![K, b]⟩ φ₂) (acc : FVec Ideal ⟨2, ![a, b]⟩ .f32) (p : Fin a) (q : Fin b) :
    FloatOps.matmul (colsDot wf) prec l r acc (ix2 p q) = acc (ix2 p q) + ∑ k : Fin K, l (ix2 k p) * r (ix2 k q) := by
  rw [Ideal.matmul_apply, colsDot_sum]

/-- Into the zero accumulator: the column-by-column sum alone. -/
theorem matmul_cols_zero_apply {φ₁ φ₂ : FTy} (prec : Option ContractPrecision) (l : FVec Ideal ⟨2, ![K, a]⟩ φ₁)
    (r : FVec Ideal ⟨2, ![K, b]⟩ φ₂) (p : Fin a) (q : Fin b) :
    FloatOps.matmul (colsDot wf) prec l r (constant ⟨2, ![a, b]⟩ .f32 0x00000000#32) (ix2 p q)
      = ∑ k : Fin K, l (ix2 k p) * r (ix2 k q) := by
  rw [Ideal.matmul_constant_zero_apply, colsDot_sum]

/-- The host's `dot_general` of columns with columns at `(p, q)`: the same sum. -/
theorem dotGeneral_cols_apply {φ₁ φ₂ : FTy} (prec : Option ContractPrecision) (sched : HostSchedule)
    (l : FVec Ideal ⟨2, ![K, a]⟩ φ₁) (r : FVec Ideal ⟨2, ![K, b]⟩ φ₂) (p : Fin a) (q : Fin b) :
    FloatOps.dotGeneral (colsDot wf) prec sched l r (ix2 p q) = ∑ k : Fin K, l (ix2 k p) * r (ix2 k q) := by
  rw [Ideal.dotGeneral_apply, colsDot_sum]

end Cert.Lib

end
-- ==== Proof.KPay.lean ====
/-
  The three kernel bodies' arithmetic, read at one entry of the block each stores.

  Every body loads whole blocks and stores one; between the load and the store it multiplies matrices (into a zero
  accumulator), adds a row spread over the rows, and changes float format, which on the extended reals is the identity.
  Read at an entry, a product of rows with columns is `Σ_k l (p, k) · r (k, q)`, a product of rows with rows
  `Σ_k l (p, k) · r (q, k)`, and a product of columns with columns `Σ_k l (k, p) · r (k, q)`.

  * the embedding tile: `(Σ_p patch (r, p) · Weᵀ (p, d)) + be d + pos (r, d)`;
  * the averaged query tile, heads along the rows: `Σ_e M (h, e) · Σ_d emb (r, d) · Wqᵀ (d, e)`;
  * the gate: `σ (Σ_n q (h, n) · Wk (m, n))`;
  * the output tile: `(Σ_e ((Σ_d emb (r, d) · Wvᵀ (d, e)) · (Σ_h k (h, r) · R (h, e))) · Woutᵀ (e, p)) + bout p`.
-/
import proofs.«174765_j1992864825604_2_alg».proof.Proof.Gen.KernelIdeal.Skeleton
import proofs.«174765_j1992864825604_2_alg».proof.Proof.LibMatDot
import proofs.«174765_j1992864825604_2_alg».proof.Proof.LibRowsDot
import proofs.«174765_j1992864825604_2_alg».proof.Proof.LibColsDot
import Idealize.ShloMosaic.Lib.ValueLayout
import Idealize.ShloMosaic.Lib.ValueIdx
import Idealize.ShloMosaic.Lib.Pipeline.Value

noncomputable section

namespace Cert.KPay

open Cert.KernelIdeal Cert.KernelIdeal.Gen Idealize.ShloMosaic Idealize.ShloMosaic.ValueIdx
open scoped BigOperators

/-- The embedding tile at row `r`, coordinate `d`. -/
theorem emb_tile (v0 : FVec Ideal S1x256x4096 .bf16) (v2 : FVec Ideal S4096x256 .bf16) (v5 : FVec Ideal S256 .f32)
    (v9 : FVec Ideal S1x256x256 .f32) (r d : Fin 256) :
    k0_pay1 (F := Ideal) v0 v2 v5 v9 (ix2 r d)
      = (∑ p : Fin 4096, v0 (ix3 (0 : Fin 1) r p) * v2 (ix2 p d)) + v5 (ix1 d) + v9 (ix3 (0 : Fin 1) r d) := by
  have h1 : matmul dot_S256x4096_S4096x256_S256x256_1_0_0_1_n_n none
        (shapeCast S256x4096 v0 shapeCasts_S1x256x4096_S256x4096) (shapeCast S4096x256 v2 shapeCasts_S4096x256_S4096x256)
        (constant S256x256 .f32 0x00000000#32) (ix2 r d)
      = ∑ p : Fin 4096, v0 (ix3 (0 : Fin 1) r p) * v2 (ix2 p d) := by
    refine (Cert.Lib.matmul_plain_zero_apply dot_S256x4096_S4096x256_S256x256_1_0_0_1_n_n_wf none _ _ r d).trans ?_
    refine Finset.sum_congr rfl fun p _ => ?_
    rw [shapeCast_1ab_ab_apply, shapeCast_self]
  have h2 : broadcastTo S256x256 (shapeCast S1x256 v5 shapeCasts_S256_S1x256) broadcasts_S1x256_S256x256 (ix2 r d) = v5 (ix1 d) := by
    rw [broadcastTo_1b_ab_apply, shapeCast_a_1a_apply]
  have h3 : shapeCast S256x256 v9 shapeCasts_S1x256x256_S256x256 (ix2 r d) = v9 (ix3 (0 : Fin 1) r d) :=
    shapeCast_1ab_ab_apply _ _ r d
  show (matmul dot_S256x4096_S4096x256_S256x256_1_0_0_1_n_n none
        (shapeCast S256x4096 v0 shapeCasts_S1x256x4096_S256x4096) (shapeCast S4096x256 v2 shapeCasts_S4096x256_S4096x256)
        (constant S256x256 .f32 0x00000000#32) (ix2 r d)
      + broadcastTo S256x256 (shapeCast S1x256 v5 shapeCasts_S256_S1x256) broadcasts_S1x256_S256x256 (ix2 r d))
      + shapeCast S256x256 v9 shapeCasts_S1x256x256_S256x256 (ix2 r d) = _
  rw [h1, h2, h3]

/-- What the first body stores in the embedding's block, at `(u, r, d)`. -/
theorem emb_store (v0 : FVec Ideal S1x256x4096 .bf16) (v2 : FVec Ideal S4096x256 .bf16) (v5 : FVec Ideal S256 .f32)
    (v9 : FVec Ideal S1x256x256 .f32) (u : Fin 1) (r d : Fin 256) :
    k0_pay2 (F := Ideal) v0 v2 v5 v9 (ix3 u r d) = k0_pay1 (F := Ideal) v0 v2 v5 v9 (ix2 r d) := by
  show shapeCast S1x256x256 (k0_pay1 (F := Ideal) v0 v2 v5 v9) shapeCasts_S256x256_S1x256x256 (ix3 u r d) = _
  exact shapeCast_ab_1ab_apply _ _ u r d

/-- What the first body stores in the query's block, at `(u, h, r)`: row `h` of the weights against the query of
    the tile's row `r`. -/
theorem q_store (v0 : FVec Ideal S1x256x4096 .bf16) (v2 : FVec Ideal S4096x256 .bf16) (v5 : FVec Ideal S256 .f32)
    (v9 : FVec Ideal S1x256x256 .f32) (v16 : FVec Ideal S256x256 .bf16) (v19 : FVec Ideal S4x256 .f32)
    (u : Fin 1) (h : Fin 4) (r : Fin 256) :
    k0_pay3 (F := Ideal) v0 v2 v5 v9 v16 v19 (ix3 u h r)
      = ∑ e : Fin 256, v19 (ix2 h e) * ∑ d : Fin 256, k0_pay1 (F := Ideal) v0 v2 v5 v9 (ix2 r d) * v16 (ix2 d e) := by
  have h18 : ∀ e : Fin 256, matmul dot_S256x256_S256x256_S256x256_1_0_0_1_n_n none (k0_pay1 (F := Ideal) v0 v2 v5 v9)
        (shapeCast S256x256 v16 shapeCasts_S256x256_S256x256) (constant S256x256 .f32 0x00000000#32) (ix2 r e)
      = ∑ d : Fin 256, k0_pay1 (F := Ideal) v0 v2 v5 v9 (ix2 r d) * v16 (ix2 d e) := fun e => by
    refine (Cert.Lib.matmul_plain_zero_apply dot_S256x256_S256x256_S256x256_1_0_0_1_n_n_wf none _ _ r e).trans ?_
    refine Finset.sum_congr rfl fun d _ => ?_
    rw [shapeCast_self]
  show shapeCast S1x4x256 (matmul dot_S4x256_S256x256_S4x256_1_1_0_0_n_n (some .fp32) (shapeCast S4x256 v19 shapeCasts_S4x256_S4x256)
      (matmul dot_S256x256_S256x256_S256x256_1_0_0_1_n_n none (k0_pay1 (F := Ideal) v0 v2 v5 v9)
        (shapeCast S256x256 v16 shapeCasts_S256x256_S256x256) (constant S256x256 .f32 0x00000000#32))
      (constant S4x256 .f32 0x00000000#32)) shapeCasts_S4x256_S1x4x256 (ix3 u h r) = _
  refine (shapeCast_ab_1ab_apply _ _ u h r).trans ?_
  refine (Cert.Lib.matmul_rows_zero_apply dot_S4x256_S256x256_S4x256_1_1_0_0_n_n_wf (some .fp32) _ _ h r).trans ?_
  refine Finset.sum_congr rfl fun e _ => ?_
  rw [shapeCast_self]
  exact congrArg (v19 (ix2 h e) * ·) (h18 e)

/-- What the second body stores, at `(u, h, m)`. -/
theorem gate_store (v0 : FVec Ideal S1x4x1024 .f32) (v3 : FVec Ideal S1024x1024 .bf16) (u : Fin 1) (h : Fin 4) (m : Fin 1024) :
    k1_pay1 (F := Ideal) v0 v3 (ix3 u h m)
      = Ideal.logistic (∑ n : Fin 1024, v0 (ix3 (0 : Fin 1) h n) * v3 (ix2 m n)) := by
  show shapeCast S1x4x1024 (logistic (matmul dot_S4x1024_S1024x1024_S4x1024_1_1_0_0_n_n none
      (truncf .bf16 (shapeCast S4x1024 v0 shapeCasts_S1x4x1024_S4x1024) bitsLt_bf16_f32)
      (shapeCast S1024x1024 v3 shapeCasts_S1024x1024_S1024x1024) (constant S4x1024 .f32 0x00000000#32)))
      shapeCasts_S4x1024_S1x4x1024 (ix3 u h m) = _
  refine (shapeCast_ab_1ab_apply _ _ u h m).trans ?_
  refine congrArg Ideal.logistic ?_
  refine (Cert.Lib.matmul_rows_zero_apply dot_S4x1024_S1024x1024_S4x1024_1_1_0_0_n_n_wf none _ _ h m).trans ?_
  refine Finset.sum_congr rfl fun n _ => ?_
  rw [shapeCast_self]
  exact congrArg (· * v3 (ix2 m n)) (shapeCast_1ab_ab_apply v0 _ h n)

/-- What the third body stores, at `(u, r, p)`. -/
theorem out_store (v0 : FVec Ideal S1x4x512 .f32) (v2 : FVec Ideal S1x512x256 .bf16) (v4 : FVec Ideal S256x256 .bf16)
    (v7 : FVec Ideal S4x256 .f32) (v11 : FVec Ideal S256x4096 .bf16) (v15 : FVec Ideal S4096 .f32)
    (u : Fin 1) (r : Fin 512) (p : Fin 4096) :
    k2_pay1 (F := Ideal) v0 v2 v4 v7 v11 v15 (ix3 u r p)
      = (∑ e : Fin 256, ((∑ d : Fin 256, v2 (ix3 (0 : Fin 1) r d) * v4 (ix2 d e))
            * (∑ h : Fin 4, v0 (ix3 (0 : Fin 1) h r) * v7 (ix2 h e))) * v11 (ix2 e p)) + v15 (ix1 p) := by
  have h6 : ∀ e : Fin 256, matmul dot_S512x256_S256x256_S512x256_1_0_0_1_n_n none
        (shapeCast S512x256 v2 shapeCasts_S1x512x256_S512x256) (shapeCast S256x256 v4 shapeCasts_S256x256_S256x256)
        (constant S512x256 .f32 0x00000000#32) (ix2 r e)
      = ∑ d : Fin 256, v2 (ix3 (0 : Fin 1) r d) * v4 (ix2 d e) := fun e => by
    refine (Cert.Lib.matmul_plain_zero_apply dot_S512x256_S256x256_S512x256_1_0_0_1_n_n_wf none _ _ r e).trans ?_
    refine Finset.sum_congr rfl fun d _ => ?_
    rw [shapeCast_1ab_ab_apply, shapeCast_self]
  have h9 : ∀ e : Fin 256, matmul dot_S4x512_S4x256_S512x256_0_0_1_1_n_n (some .fp32)
        (shapeCast S4x512 v0 shapeCasts_S1x4x512_S4x512) (shapeCast S4x256 v7 shapeCasts_S4x256_S4x256)
        (constant S512x256 .f32 0x00000000#32) (ix2 r e)
      = ∑ h : Fin 4, v0 (ix3 (0 : Fin 1) h r) * v7 (ix2 h e) := fun e => by
    refine (Cert.Lib.matmul_cols_zero_apply dot_S4x512_S4x256_S512x256_0_0_1_1_n_n_wf (some .fp32) _ _ r e).trans ?_
    refine Finset.sum_congr rfl fun h _ => ?_
    rw [shapeCast_1ab_ab_apply, shapeCast_self]
  have h17 : broadcastTo S512x4096 (shapeCast S1x4096 v15 shapeCasts_S4096_S1x4096) broadcasts_S1x4096_S512x4096 (ix2 r p) = v15 (ix1 p) := by
    rw [broadcastTo_1b_ab_apply, shapeCast_a_1a_apply]
  show shapeCast S1x512x4096 (addf (matmul dot_S512x256_S256x4096_S512x4096_1_0_0_1_n_n none
        (truncf .bf16 (mulf
          (matmul dot_S512x256_S256x256_S512x256_1_0_0_1_n_n none
            (shapeCast S512x256 v2 shapeCasts_S1x512x256_S512x256) (shapeCast S256x256 v4 shapeCasts_S256x256_S256x256)
            (constant S512x256 .f32 0x00000000#32))
          (matmul dot_S4x512_S4x256_S512x256_0_0_1_1_n_n (some .fp32)
            (shapeCast S4x512 v0 shapeCasts_S1x4x512_S4x512) (shapeCast S4x256 v7 shapeCasts_S4x256_S4x256)
            (constant S512x256 .f32 0x00000000#32))) bitsLt_bf16_f32)
        (shapeCast S256x4096 v11 shapeCasts_S256x4096_S256x4096) (constant S512x4096 .f32 0x00000000#32))
      (broadcastTo S512x4096 (shapeCast S1x4096 v15 shapeCasts_S4096_S1x4096) broadcasts_S1x4096_S512x4096))
      shapeCasts_S512x4096_S1x512x4096 (ix3 u r p) = _
  refine (shapeCast_ab_1ab_apply _ _ u r p).trans ?_
  refine (addf_apply _ _ _).trans ?_
  rw [h17]
  refine congrArg (· + v15 (ix1 p)) ?_
  refine (Cert.Lib.matmul_plain_zero_apply dot_S512x256_S256x4096_S512x4096_1_0_0_1_n_n_wf none _ _ r p).trans ?_
  refine Finset.sum_congr rfl fun e _ => ?_
  have hv11 : shapeCast S256x4096 v11 shapeCasts_S256x4096_S256x4096 (ix2 e p) = v11 (ix2 e p) := by rw [shapeCast_self]
  rw [hv11]
  refine congrArg (· * v11 (ix2 e p)) ?_
  show matmul dot_S512x256_S256x256_S512x256_1_0_0_1_n_n none
        (shapeCast S512x256 v2 shapeCasts_S1x512x256_S512x256) (shapeCast S256x256 v4 shapeCasts_S256x256_S256x256)
        (constant S512x256 .f32 0x00000000#32) (ix2 r e)
      * matmul dot_S4x512_S4x256_S512x256_0_0_1_1_n_n (some .fp32)
        (shapeCast S4x512 v0 shapeCasts_S1x4x512_S4x512) (shapeCast S4x256 v7 shapeCasts_S4x256_S4x256)
        (constant S512x256 .f32 0x00000000#32) (ix2 r e) = _
  rw [h6 e, h9 e]

end Cert.KPay

end
-- ==== Proof.KReg0.lean ====
/-
  The first kernel's two output arrays as functions of the arrays it is entered with.

  The grid has a point per image `b` and quarter `nt` of the 1024 patches. Point `(b, nt)` loads the patches'
  block (image `b`, the quarter's 256 patches, all 4096 numbers), the positions' block (the quarter's 256 rows) and
  the whole of `Weᵀ`, `be`, `Wqᵀ` and the head-average matrix `M`. It stores

  * the embedding's block: at `(b, n, d)`, `(Σ_p patch (b, n, p) · Weᵀ (p, d)) + be d + pos (0, n, d)`;
  * the averaged query's block, heads along the rows: at `(b, h, n)`,
    `Σ_e M (h, e) · Σ_d emb (b, n, d) · Wqᵀ (d, e)`.

  Each output's 32 blocks tile its array.
-/
import proofs.«174765_j1992864825604_2_alg».proof.Proof.Gen.KernelIdeal.Frame
import proofs.«174765_j1992864825604_2_alg».proof.Proof.KPay
import Idealize.ShloMosaic.Lib.Pipeline.Value

set_option maxRecDepth 16384

noncomputable section

namespace Cert.KReg0

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b)) (c : Dev nD)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a; rfl

/-- The embedding array of the patches, `Weᵀ`, `be` and the positions. -/
def Gemb (P : S8x1024x4096.Idx → EReal) (we : S4096x256.Idx → EReal) (be : S256.Idx → EReal) (pos : S1x1024x256.Idx → EReal) :
    S8x1024x256.Idx → EReal := fun i =>
  (∑ p : Fin 4096, P (ix3 (⟨(i 0).val, (i 0).isLt⟩ : Fin 8) (⟨(i 1).val, (i 1).isLt⟩ : Fin 1024) p)
      * we (ix2 p (⟨(i 2).val, (i 2).isLt⟩ : Fin 256)))
    + be (ix1 (⟨(i 2).val, (i 2).isLt⟩ : Fin 256))
    + pos (ix3 (0 : Fin 1) (⟨(i 1).val, (i 1).isLt⟩ : Fin 1024) (⟨(i 2).val, (i 2).isLt⟩ : Fin 256))

theorem Gemb_apply (P : S8x1024x4096.Idx → EReal) (we : S4096x256.Idx → EReal) (be : S256.Idx → EReal)
    (pos : S1x1024x256.Idx → EReal) (b : Fin 8) (n : Fin 1024) (d : Fin 256) :
    Gemb P we be pos (ix3 b n d)
      = (∑ p : Fin 4096, P (ix3 b n p) * we (ix2 p d)) + be (ix1 d) + pos (ix3 (0 : Fin 1) n d) := rfl

/-- The averaged-query array, heads along axis 1. -/
def Gq (P : S8x1024x4096.Idx → EReal) (we : S4096x256.Idx → EReal) (be : S256.Idx → EReal) (pos : S1x1024x256.Idx → EReal)
    (wq : S256x256.Idx → EReal) (M : S4x256.Idx → EReal) : S8x4x1024.Idx → EReal := fun i =>
  ∑ e : Fin 256, M (ix2 (⟨(i 1).val, (i 1).isLt⟩ : Fin 4) e)
    * ∑ d : Fin 256, Gemb P we be pos (ix3 (⟨(i 0).val, (i 0).isLt⟩ : Fin 8) (⟨(i 2).val, (i 2).isLt⟩ : Fin 1024) d) * wq (ix2 d e)

theorem Gq_apply (P : S8x1024x4096.Idx → EReal) (we : S4096x256.Idx → EReal) (be : S256.Idx → EReal)
    (pos : S1x1024x256.Idx → EReal) (wq : S256x256.Idx → EReal) (M : S4x256.Idx → EReal) (b : Fin 8) (h : Fin 4) (n : Fin 1024) :
    Gq P we be pos wq M (ix3 b h n)
      = ∑ e : Fin 256, M (ix2 h e) * ∑ d : Fin 256, Gemb P we be pos (ix3 b n d) * wq (ix2 d e) := rfl

/-- What the body stores in the embedding's block, at any entry. -/
theorem emb_store_at (v0 : FVec Ideal S1x256x4096 .bf16) (v2 : FVec Ideal S4096x256 .bf16) (v5 : FVec Ideal S256 .f32)
    (v9 : FVec Ideal S1x256x256 .f32) (y : S1x256x256.Idx) :
    k0_pay2 (F := Ideal) v0 v2 v5 v9 y
      = k0_pay1 (F := Ideal) v0 v2 v5 v9 (ix2 (⟨(y 1).val, (y 1).isLt⟩ : Fin 256) (⟨(y 2).val, (y 2).isLt⟩ : Fin 256)) := by
  obtain ⟨u, r, d, rfl⟩ : ∃ (u : Fin 1) (r : Fin 256) (d : Fin 256), y = ix3 u r d := ⟨y 0, y 1, y 2, eq_ix3 y⟩
  exact Cert.KPay.emb_store v0 v2 v5 v9 u r d

/-- What the body stores in the query's block, at any entry. -/
theorem q_store_at (v0 : FVec Ideal S1x256x4096 .bf16) (v2 : FVec Ideal S4096x256 .bf16) (v5 : FVec Ideal S256 .f32)
    (v9 : FVec Ideal S1x256x256 .f32) (v16 : FVec Ideal S256x256 .bf16) (v19 : FVec Ideal S4x256 .f32) (y : S1x4x256.Idx) :
    k0_pay3 (F := Ideal) v0 v2 v5 v9 v16 v19 y
      = ∑ e : Fin 256, v19 (ix2 (⟨(y 1).val, (y 1).isLt⟩ : Fin 4) e)
          * ∑ d : Fin 256, k0_pay1 (F := Ideal) v0 v2 v5 v9 (ix2 (⟨(y 2).val, (y 2).isLt⟩ : Fin 256) d) * v16 (ix2 d e) := by
  obtain ⟨u, h, r, rfl⟩ : ∃ (u : Fin 1) (h : Fin 4) (r : Fin 256), y = ix3 u h r := ⟨y 0, y 1, y 2, eq_ix3 y⟩
  exact Cert.KPay.q_store v0 v2 v5 v9 v16 v19 u h r

/-- The windows' block indices over the grid: the patches', the embedding's and the query's blocks move with the
    image and the quarter, the positions' with the quarter, the four resident arrays stay. -/
theorem idx_facts : ∀ t : Fin cfg0.N, win0_0.index t (0 : Fin 3) = win0_6.index t (0 : Fin 3)
    ∧ win0_0.index t (1 : Fin 3) = win0_6.index t (1 : Fin 3) ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = 0 ∧ win0_3.index t (1 : Fin 3) = win0_6.index t (1 : Fin 3) ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (2 : Fin 3) = 0
    ∧ win0_7.index t (0 : Fin 3) = win0_6.index t (0 : Fin 3) ∧ win0_7.index t (1 : Fin 3) = 0
    ∧ win0_7.index t (2 : Fin 3) = win0_6.index t (1 : Fin 3)
    ∧ win0_6.index t (0 : Fin 3) < 8 ∧ win0_6.index t (1 : Fin 3) < 4 :=
  (by decide +kernel : ∀ t : Fin grid0.N, _)

theorem idx_onto6 : ∀ (q0 : Fin 8) (q1 : Fin 4), ∃ t : Fin cfg0.N, win0_6.index t = ![q0.val, q1.val, 0] :=
  (by decide +kernel : ∀ (q0 : Fin 8) (q1 : Fin 4), ∃ t : Fin grid0.N, win0_6.index t = ![q0.val, q1.val, 0])

theorem idx_onto7 : ∀ (q0 : Fin 8) (q1 : Fin 4), ∃ t : Fin cfg0.N, win0_7.index t = ![q0.val, 0, q1.val] :=
  (by decide +kernel : ∀ (q0 : Fin 8) (q1 : Fin 4), ∃ t : Fin grid0.N, win0_7.index t = ![q0.val, 0, q1.val])

/-- The embedding tile a point computes from its blocks is the embedding array's entries of the point's image and
    quarter: tile row `r` is patch `256 · nt + r`. -/
theorem tile_eq (t : Fin cfg0.N) (r d d' : Fin 256) (b : Fin 8) (n : Fin 1024)
    (hb : b.val = win0_6.index t (0 : Fin 3)) (hn : n.val = win0_6.index t (1 : Fin 3) * 256 + r.val) (hd : d'.val = d.val) :
    k0_pay1 (F := Ideal) (iblk0 V c 0 t) (iblk0 V c 1 t) (iblk0 V c 2 t) (iblk0 V c 3 t) (ix2 r d)
      = Gemb (V c main_v3) (V c main_v5) (V c main_arg2) (V c main_arg3) (ix3 b n d') := by
  obtain ⟨f0, f1, f2, f3, f4, f5, f6, f7, f8, f9, f10, f11, f12, f13, f14, f15, f16, f17, f18⟩ := idx_facts t
  refine (Cert.KPay.emb_tile (iblk0 V c 0 t) (iblk0 V c 1 t) (iblk0 V c 2 t) (iblk0 V c 3 t) r d).trans ?_
  rw [Gemb_apply]
  have hP : ∀ p : Fin 4096, iblk0 V c 0 t (ix3 (0 : Fin 1) r p) = V c main_v3 (ix3 b n p) := fun p => by
    show V c main_v3 (((cfg0.win 0).blk t).view.emb (ix3 (0 : Fin 1) r p)) = _
    refine congrArg (V c main_v3) ?_
    funext a; apply Fin.ext
    match a with
    | ⟨0, _⟩ => show win0_0.index t (0 : Fin 3) * 1 + 1 * 0 = b.val; omega
    | ⟨1, _⟩ => show win0_0.index t (1 : Fin 3) * 256 + 1 * r.val = n.val; omega
    | ⟨2, _⟩ => show win0_0.index t (2 : Fin 3) * 4096 + 1 * p.val = p.val; omega
  have hWe : ∀ p : Fin 4096, iblk0 V c 1 t (ix2 p d) = V c main_v5 (ix2 p d') := fun p => by
    show V c main_v5 (((cfg0.win 1).blk t).view.emb (ix2 p d)) = _
    refine congrArg (V c main_v5) ?_
    funext a; apply Fin.ext
    match a with
    | ⟨0, _⟩ => show win0_1.index t (0 : Fin 2) * 4096 + 1 * p.val = p.val; omega
    | ⟨1, _⟩ => show win0_1.index t (1 : Fin 2) * 256 + 1 * d.val = d'.val; omega
  have hbe : iblk0 V c 2 t (ix1 d) = V c main_arg2 (ix1 d') := by
    show V c main_arg2 (((cfg0.win 2).blk t).view.emb (ix1 d)) = _
    refine congrArg (V c main_arg2) ?_
    funext a; apply Fin.ext
    match a with
    | ⟨0, _⟩ => show win0_2.index t (0 : Fin 1) * 256 + 1 * d.val = d'.val; omega
  have hpos : iblk0 V c 3 t (ix3 (0 : Fin 1) r d) = V c main_arg3 (ix3 (0 : Fin 1) n d') := by
    show V c main_arg3 (((cfg0.win 3).blk t).view.emb (ix3 (0 : Fin 1) r d)) = _
    refine congrArg (V c main_arg3) ?_
    funext a; apply Fin.ext
    match a with
    | ⟨0, _⟩ => show win0_3.index t (0 : Fin 3) * 1 + 1 * 0 = 0; omega
    | ⟨1, _⟩ => show win0_3.index t (1 : Fin 3) * 256 + 1 * r.val = n.val; omega
    | ⟨2, _⟩ => show win0_3.index t (2 : Fin 3) * 256 + 1 * d.val = d'.val; omega
  rw [hbe, hpos]
  refine congrArg (· + V c main_arg2 (ix1 d') + V c main_arg3 (ix3 (0 : Fin 1) n d')) ?_
  refine Finset.sum_congr rfl fun p _ => ?_
  rw [hP p, hWe p]

/-! ## The embedding's array -/

/-- What point `t` writes back through the embedding's window is block `t` of the embedding array. -/
theorem flushed6_eq (t : Fin cfg0.N) :
    (dat0 V c).flushed 6 t = ((cfg0.win 6).blk t).view.read (Elt Ideal)
      (Gemb (V c main_v3) (V c main_v5) (V c main_arg2) (V c main_arg3)) := by
  show (cfg0.win 6).cut (grid0.coords t) ((dat0 V c).after 6 t) = _
  rw [after0_6]
  unfold out0_6
  rw [View.canon_unit_zero hz3]
  simp only [View.ld_unit_zero (S := S1x256x4096) hz3, View.ld_unit_zero (S := S4096x256) hz2, View.ld_unit_zero (S := S256) hz1,
    View.ld_unit_zero (S := S1x256x256) hz3]
  obtain ⟨f0, f1, f2, f3, f4, f5, f6, f7, f8, f9, f10, f11, f12, f13, f14, f15, f16, f17, f18⟩ := idx_facts t
  funext j
  refine (emb_store_at (iblk0 V c 0 t) (iblk0 V c 1 t) (iblk0 V c 2 t) (iblk0 V c 3 t) j).trans ?_
  have hj0 : (j 0).val < 1 := (j 0).isLt
  have hj1 : (j 1).val < 256 := (j 1).isLt
  have hj2 : (j 2).val < 256 := (j 2).isLt
  exact tile_eq V c t (⟨(j 1).val, (j 1).isLt⟩ : Fin 256) (⟨(j 2).val, (j 2).isLt⟩ : Fin 256) (⟨((((cfg0.win 6).blk t).view.emb j) 2).val, ((((cfg0.win 6).blk t).view.emb j) 2).isLt⟩ : Fin 256)
    (⟨((((cfg0.win 6).blk t).view.emb j) 0).val, ((((cfg0.win 6).blk t).view.emb j) 0).isLt⟩ : Fin 8) (⟨((((cfg0.win 6).blk t).view.emb j) 1).val, ((((cfg0.win 6).blk t).view.emb j) 1).isLt⟩ : Fin 1024)
    (by show win0_6.index t (0 : Fin 3) * 1 + 1 * (j 0).val = win0_6.index t (0 : Fin 3); omega)
    (by show win0_6.index t (1 : Fin 3) * 256 + 1 * (j 1).val = win0_6.index t (1 : Fin 3) * 256 + (j 1).val; omega)
    (by show win0_6.index t (2 : Fin 3) * 256 + 1 * (j 2).val = (j 2).val; omega)

theorem mem_blk6 (t : Fin cfg0.N) (i : S8x1024x256.Idx) :
    i ∈ ((cfg0.win 6).blk t).view.set ↔ ∀ a : Fin 3, win0_6.index t a * S1x256x256.size a ≤ (i a).val
      ∧ (i a).val < win0_6.index t a * S1x256x256.size a + S1x256x256.size a := by
  show i ∈ ((View.whole main_v23_0).slice (win0_6.rect t)).set ↔ _
  rw [View.set_slice_whole, Rect.mem_set_unit]
  exact Iff.rfl

theorem cover6 (i : S8x1024x256.Idx) : ∃ t : Fin cfg0.N, (cfg0.win 6).flush t = true ∧ i ∈ ((cfg0.win 6).blk t).view.set := by
  have hi0 : (i 0).val < 8 := (i 0).isLt
  have hi1 : (i 1).val < 1024 := (i 1).isLt
  have hi2 : (i 2).val < 256 := (i 2).isLt
  obtain ⟨t, ht⟩ := idx_onto6 ⟨(i 0).val, hi0⟩ ⟨(i 1).val / 256, by omega⟩
  have q0 : win0_6.index t (0 : Fin 3) = (i 0).val := congrFun ht 0
  have q1 : win0_6.index t (1 : Fin 3) = (i 1).val / 256 := congrFun ht 1
  have q2 : win0_6.index t (2 : Fin 3) = 0 := congrFun ht 2
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 256 ≤ (i 2).val ∧ (i 2).val < win0_6.index t (2 : Fin 3) * 256 + 256; omega

/-- After the run the embedding's array is `Gemb` of the arrays the kernel was entered with. -/
theorem final6 : (dat0 V c).arrAt 6 cfg0.N = Gemb (V c main_v3) (V c main_v5) (V c main_arg2) (V c main_arg3) :=
  (dat0 V c).arrAt_eq_of_cover 6 _ (fun t _ => flushed6_eq V c t) (cover6)

/-! ## The averaged query's array -/

/-- What point `t` writes back through the query's window is block `t` of the averaged-query array. -/
theorem flushed7_eq (t : Fin cfg0.N) :
    (dat0 V c).flushed 7 t = ((cfg0.win 7).blk t).view.read (Elt Ideal)
      (Gq (V c main_v3) (V c main_v5) (V c main_arg2) (V c main_arg3) (V c main_v7) (V c main_v21)) := by
  show (cfg0.win 7).cut (grid0.coords t) ((dat0 V c).after 7 t) = _
  rw [after0_7]
  unfold out0_7
  rw [View.canon_unit_zero hz3]
  simp only [View.ld_unit_zero (S := S1x256x4096) hz3, View.ld_unit_zero (S := S4096x256) hz2, View.ld_unit_zero (S := S256) hz1,
    View.ld_unit_zero (S := S1x256x256) hz3, View.ld_unit_zero (S := S256x256) hz2, View.ld_unit_zero (S := S4x256) hz2]
  obtain ⟨f0, f1, f2, f3, f4, f5, f6, f7, f8, f9, f10, f11, f12, f13, f14, f15, f16, f17, f18⟩ := idx_facts t
  funext j
  refine (q_store_at (iblk0 V c 0 t) (iblk0 V c 1 t) (iblk0 V c 2 t) (iblk0 V c 3 t) (iblk0 V c 4 t) (iblk0 V c 5 t) j).trans ?_
  show _ = Gq (V c main_v3) (V c main_v5) (V c main_arg2) (V c main_arg3) (V c main_v7) (V c main_v21) (((cfg0.win 7).blk t).view.emb j)
  unfold Gq
  have hj0 : (j 0).val < 1 := (j 0).isLt
  have hj1 : (j 1).val < 4 := (j 1).isLt
  have hj2 : (j 2).val < 256 := (j 2).isLt
  have hM : ∀ e : Fin 256, iblk0 V c 5 t (ix2 (⟨(j 1).val, (j 1).isLt⟩ : Fin 4) e) = V c main_v21 (ix2 (⟨((((cfg0.win 7).blk t).view.emb j) 1).val, ((((cfg0.win 7).blk t).view.emb j) 1).isLt⟩ : Fin 4) e) := fun e => by
    show V c main_v21 (((cfg0.win 5).blk t).view.emb (ix2 (⟨(j 1).val, (j 1).isLt⟩ : Fin 4) e)) = _
    refine congrArg (V c main_v21) ?_
    funext a; apply Fin.ext
    match a with
    | ⟨0, _⟩ => show win0_5.index t (0 : Fin 2) * 4 + 1 * (j 1).val = win0_7.index t (1 : Fin 3) * 4 + 1 * (j 1).val; omega
    | ⟨1, _⟩ => show win0_5.index t (1 : Fin 2) * 256 + 1 * e.val = e.val; omega
  have hwq : ∀ (d e : Fin 256), iblk0 V c 4 t (ix2 d e) = V c main_v7 (ix2 d e) := fun d e => by
    show V c main_v7 (((cfg0.win 4).blk t).view.emb (ix2 d e)) = _
    refine congrArg (V c main_v7) ?_
    funext a; apply Fin.ext
    match a with
    | ⟨0, _⟩ => show win0_4.index t (0 : Fin 2) * 256 + 1 * d.val = d.val; omega
    | ⟨1, _⟩ => show win0_4.index t (1 : Fin 2) * 256 + 1 * e.val = e.val; omega
  refine Finset.sum_congr rfl fun e _ => ?_
  refine congrArg₂ (fun a b : EReal => a * b) (hM e) (Finset.sum_congr rfl fun d _ => ?_)
  rw [hwq d e]
  refine congrArg (· * V c main_v7 (ix2 d e)) ?_
  exact tile_eq V c t (⟨(j 2).val, (j 2).isLt⟩ : Fin 256) d d (⟨((((cfg0.win 7).blk t).view.emb j) 0).val, ((((cfg0.win 7).blk t).view.emb j) 0).isLt⟩ : Fin 8) (⟨((((cfg0.win 7).blk t).view.emb j) 2).val, ((((cfg0.win 7).blk t).view.emb j) 2).isLt⟩ : Fin 1024)
    (by show win0_7.index t (0 : Fin 3) * 1 + 1 * (j 0).val = win0_6.index t (0 : Fin 3); omega)
    (by show win0_7.index t (2 : Fin 3) * 256 + 1 * (j 2).val = win0_6.index t (1 : Fin 3) * 256 + (j 2).val; omega)
    rfl

theorem mem_blk7 (t : Fin cfg0.N) (i : S8x4x1024.Idx) :
    i ∈ ((cfg0.win 7).blk t).view.set ↔ ∀ a : Fin 3, win0_7.index t a * S1x4x256.size a ≤ (i a).val
      ∧ (i a).val < win0_7.index t a * S1x4x256.size a + S1x4x256.size a := by
  show i ∈ ((View.whole main_v23_1).slice (win0_7.rect t)).set ↔ _
  rw [View.set_slice_whole, Rect.mem_set_unit]
  exact Iff.rfl

theorem cover7 (i : S8x4x1024.Idx) : ∃ t : Fin cfg0.N, (cfg0.win 7).flush t = true ∧ i ∈ ((cfg0.win 7).blk t).view.set := by
  have hi0 : (i 0).val < 8 := (i 0).isLt
  have hi1 : (i 1).val < 4 := (i 1).isLt
  have hi2 : (i 2).val < 1024 := (i 2).isLt
  obtain ⟨t, ht⟩ := idx_onto7 ⟨(i 0).val, hi0⟩ ⟨(i 2).val / 256, by omega⟩
  have q0 : win0_7.index t (0 : Fin 3) = (i 0).val := congrFun ht 0
  have q1 : win0_7.index t (1 : Fin 3) = 0 := congrFun ht 1
  have q2 : win0_7.index t (2 : Fin 3) = (i 2).val / 256 := congrFun ht 2
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 4 ≤ (i 1).val ∧ (i 1).val < win0_7.index t (1 : Fin 3) * 4 + 4; omega
  | ⟨2, _⟩ => show win0_7.index t (2 : Fin 3) * 256 ≤ (i 2).val ∧ (i 2).val < win0_7.index t (2 : Fin 3) * 256 + 256; omega

/-- After the run the averaged query's array is `Gq` of the arrays the kernel was entered with. -/
theorem final7 : (dat0 V c).arrAt 7 cfg0.N
    = Gq (V c main_v3) (V c main_v5) (V c main_arg2) (V c main_arg3) (V c main_v7) (V c main_v21) :=
  (dat0 V c).arrAt_eq_of_cover 7 _ (fun t _ => flushed7_eq V c t) (cover7)

end Cert.KReg0

end
-- ==== Proof.KReg1.lean ====
/-
  The second kernel's output array as one function of the arrays it is entered with.

  The grid has one point per image `b`. Point `b` loads block `b` of the averaged query (all 4 heads, all 1024
  patches) and the whole matrix `Wk`, and stores block `b` of the gate: `σ (Σ_n q (b, h, n) · Wk (m, n))` at
  `(b, h, m)`. The 8 blocks tile the array, so after the run the whole array is that function.
-/
import proofs.«174765_j1992864825604_2_alg».proof.Proof.Gen.KernelIdeal.Frame
import proofs.«174765_j1992864825604_2_alg».proof.Proof.KPay
import Idealize.ShloMosaic.Lib.Pipeline.Value

set_option maxRecDepth 16384

noncomputable section

namespace Cert.KReg1

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b)) (c : Dev nD)

theorem hz3 : (![0, 0, 0] : Fin 3 → Nat) = fun _ => 0 := funext fun a => by fin_cases a <;> rfl
theorem hz2 : (![0, 0] : Fin 2 → Nat) = fun _ => 0 := funext fun a => by fin_cases a <;> rfl

/-- The gate array of a query array and `Wk`. -/
def G (q : S8x4x1024.Idx → EReal) (wk : S1024x1024.Idx → EReal) : S8x4x1024.Idx → EReal := fun i =>
  Ideal.logistic (∑ n : Fin 1024, q (ix3 (⟨(i 0).val, (i 0).isLt⟩ : Fin 8) (⟨(i 1).val, (i 1).isLt⟩ : Fin 4) n)
    * wk (ix2 (⟨(i 2).val, (i 2).isLt⟩ : Fin 1024) n))

theorem G_apply (q : S8x4x1024.Idx → EReal) (wk : S1024x1024.Idx → EReal) (b : Fin 8) (h : Fin 4) (m : Fin 1024) :
    G q wk (ix3 b h m) = Ideal.logistic (∑ n : Fin 1024, q (ix3 b h n) * wk (ix2 m n)) := rfl

/-- What the body stores, at any entry of its block. -/
theorem store_at (v0 : FVec Ideal S1x4x1024 .f32) (v3 : FVec Ideal S1024x1024 .bf16) (y : S1x4x1024.Idx) :
    k1_pay1 (F := Ideal) v0 v3 y
      = Ideal.logistic (∑ n : Fin 1024, v0 (ix3 (0 : Fin 1) (⟨(y 1).val, (y 1).isLt⟩ : Fin 4) n)
          * v3 (ix2 (⟨(y 2).val, (y 2).isLt⟩ : Fin 1024) n)) := by
  obtain ⟨u, h, m, rfl⟩ : ∃ (u : Fin 1) (h : Fin 4) (m : Fin 1024), y = ix3 u h m := ⟨y 0, y 1, y 2, eq_ix3 y⟩
  exact Cert.KPay.gate_store v0 v3 u h m

/-- The windows' block indices over the grid: the query's and the gate's blocks move with the image, `Wk`'s stays. -/
theorem idx_facts : ∀ t : Fin cfg1.N, win1_0.index t (0 : Fin 3) = win1_2.index t (0 : Fin 3)
    ∧ win1_0.index t (1 : Fin 3) = 0 ∧ win1_0.index t (2 : Fin 3) = 0
    ∧ win1_1.index t (0 : Fin 2) = 0 ∧ win1_1.index t (1 : Fin 2) = 0
    ∧ win1_2.index t (1 : Fin 3) = 0 ∧ win1_2.index t (2 : Fin 3) = 0 ∧ win1_2.index t (0 : Fin 3) < 8 :=
  (by decide +kernel : ∀ t : Fin grid1.N, _)

/-- Every image's block is some point's. -/
theorem idx_onto : ∀ q0 : Fin 8, ∃ t : Fin cfg1.N, win1_2.index t = ![q0.val, 0, 0] :=
  (by decide +kernel : ∀ q0 : Fin 8, ∃ t : Fin grid1.N, win1_2.index t = ![q0.val, 0, 0])

/-- What point `t` writes back is block `t` of the gate array. -/
theorem flushed_eq (t : Fin cfg1.N) :
    (dat1 V c).flushed 2 t = ((cfg1.win 2).blk t).view.read (Elt Ideal) (G (V c main_v23_1) (V c main_v12)) := by
  show (cfg1.win 2).cut (grid1.coords t) ((dat1 V c).after 2 t) = _
  rw [after1_2]
  unfold out1_2
  rw [View.canon_unit_zero hz3]
  simp only [View.ld_unit_zero (S := S1x4x1024) hz3, View.ld_unit_zero (S := S1024x1024) hz2]
  obtain ⟨e0, e1, e2, e3, e4, e5, e6, e7⟩ := idx_facts t
  funext j
  refine (store_at (iblk1 V c 0 t) (iblk1 V c 1 t) j).trans ?_
  show _ = G (V c main_v23_1) (V c main_v12) (((cfg1.win 2).blk t).view.emb j)
  unfold G
  refine congrArg Ideal.logistic (Finset.sum_congr rfl fun n _ => ?_)
  have hj0 : (j 0).val < 1 := (j 0).isLt
  have hj1 : (j 1).val < 4 := (j 1).isLt
  have hj2 : (j 2).val < 1024 := (j 2).isLt
  have ha : iblk1 V c 0 t (ix3 (0 : Fin 1) (⟨(j 1).val, (j 1).isLt⟩ : Fin 4) n)
      = V c main_v23_1 (ix3 (⟨((((cfg1.win 2).blk t).view.emb j) 0).val, ((((cfg1.win 2).blk t).view.emb j) 0).isLt⟩ : Fin 8)
          (⟨((((cfg1.win 2).blk t).view.emb j) 1).val, ((((cfg1.win 2).blk t).view.emb j) 1).isLt⟩ : Fin 4) n) := by
    show V c main_v23_1 (((cfg1.win 0).blk t).view.emb (ix3 (0 : Fin 1) (⟨(j 1).val, (j 1).isLt⟩ : Fin 4) n)) = _
    refine congrArg (V c main_v23_1) ?_
    funext a; apply Fin.ext
    match a with
    | ⟨0, _⟩ => show win1_0.index t (0 : Fin 3) * 1 + 1 * 0 = win1_2.index t (0 : Fin 3) * 1 + 1 * (j 0).val; omega
    | ⟨1, _⟩ => show win1_0.index t (1 : Fin 3) * 4 + 1 * (j 1).val = win1_2.index t (1 : Fin 3) * 4 + 1 * (j 1).val; omega
    | ⟨2, _⟩ => show win1_0.index t (2 : Fin 3) * 1024 + 1 * n.val = n.val; omega
  have hb : iblk1 V c 1 t (ix2 (⟨(j 2).val, (j 2).isLt⟩ : Fin 1024) n)
      = V c main_v12 (ix2 (⟨((((cfg1.win 2).blk t).view.emb j) 2).val, ((((cfg1.win 2).blk t).view.emb j) 2).isLt⟩ : Fin 1024) n) := by
    show V c main_v12 (((cfg1.win 1).blk t).view.emb (ix2 (⟨(j 2).val, (j 2).isLt⟩ : Fin 1024) n)) = _
    refine congrArg (V c main_v12) ?_
    funext a; apply Fin.ext
    match a with
    | ⟨0, _⟩ => show win1_1.index t (0 : Fin 2) * 1024 + 1 * (j 2).val = win1_2.index t (2 : Fin 3) * 1024 + 1 * (j 2).val; omega
    | ⟨1, _⟩ => show win1_1.index t (1 : Fin 2) * 1024 + 1 * n.val = n.val; omega
  rw [ha, hb]

/-- An index is in point `t`'s block iff each coordinate is in the block's range on its axis. -/
theorem mem_blk (t : Fin cfg1.N) (i : S8x4x1024.Idx) :
    i ∈ ((cfg1.win 2).blk t).view.set ↔ ∀ a : Fin 3, win1_2.index t a * S1x4x1024.size a ≤ (i a).val
      ∧ (i a).val < win1_2.index t a * S1x4x1024.size a + S1x4x1024.size a := by
  show i ∈ ((View.whole main_v24).slice (win1_2.rect t)).set ↔ _
  rw [View.set_slice_whole, Rect.mem_set_unit]
  exact Iff.rfl

/-- The 8 blocks cover the array. -/
theorem cover (i : S8x4x1024.Idx) : ∃ t : Fin cfg1.N, (cfg1.win 2).flush t = true ∧ i ∈ ((cfg1.win 2).blk t).view.set := by
  have hi0 : (i 0).val < 8 := (i 0).isLt
  have hi1 : (i 1).val < 4 := (i 1).isLt
  have hi2 : (i 2).val < 1024 := (i 2).isLt
  obtain ⟨t, ht⟩ := idx_onto ⟨(i 0).val, hi0⟩
  have q0 : win1_2.index t (0 : Fin 3) = (i 0).val := congrFun ht 0
  have q1 : win1_2.index t (1 : Fin 3) = 0 := congrFun ht 1
  have q2 : win1_2.index t (2 : Fin 3) = 0 := congrFun ht 2
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 4 ≤ (i 1).val ∧ (i 1).val < win1_2.index t (1 : Fin 3) * 4 + 4; omega
  | ⟨2, _⟩ => show win1_2.index t (2 : Fin 3) * 1024 ≤ (i 2).val ∧ (i 2).val < win1_2.index t (2 : Fin 3) * 1024 + 1024; omega

/-- After the run the gate's array is `G` of the query array and `Wk` as the kernel was entered with them. -/
theorem final : (dat1 V c).arrAt 2 cfg1.N = G (V c main_v23_1) (V c main_v12) :=
  (dat1 V c).arrAt_eq_of_cover 2 _ (fun t _ => flushed_eq V c t) (cover)

end Cert.KReg1

end
-- ==== Proof.KReg2.lean ====
/-
  The third kernel's output array as one function of the arrays it is entered with.

  The grid has a point per image `b` and half `mt` of the 1024 patches. Point `(b, mt)` loads the gate's block
  (image `b`, all 4 heads, patches of the half), the embedding's block (image `b`, the half's 512 patches), and the
  whole of `Wvᵀ`, the 0/1 head matrix `R`, `Woutᵀ` and `bout`; it stores the output's block (image `b`, the half's
  patches, all 4096 numbers): at `(b, n, p)`,
  `(Σ_e ((Σ_d emb (b, n, d) · Wvᵀ (d, e)) · (Σ_h k (b, h, n) · R (h, e))) · Woutᵀ (e, p)) + bout p`.
  The 16 blocks tile the array.
-/
import proofs.«174765_j1992864825604_2_alg».proof.Proof.Gen.KernelIdeal.Frame
import proofs.«174765_j1992864825604_2_alg».proof.Proof.KPay
import Idealize.ShloMosaic.Lib.Pipeline.Value

set_option maxRecDepth 16384

noncomputable section

namespace Cert.KReg2

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b)) (c : Dev nD)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a; rfl

/-- The output array of the gate, the embedding, `Wvᵀ`, the head matrix, `Woutᵀ` and `bout`. -/
def G (k : S8x4x1024.Idx → EReal) (emb : S8x1024x256.Idx → EReal) (wv : S256x256.Idx → EReal) (rx : S4x256.Idx → EReal)
    (wo : S256x4096.Idx → EReal) (bo : S4096.Idx → EReal) : S8x1024x4096.Idx → EReal := fun i =>
  (∑ e : Fin 256, ((∑ d : Fin 256, emb (ix3 (⟨(i 0).val, (i 0).isLt⟩ : Fin 8) (⟨(i 1).val, (i 1).isLt⟩ : Fin 1024) d) * wv (ix2 d e))
      * (∑ h : Fin 4, k (ix3 (⟨(i 0).val, (i 0).isLt⟩ : Fin 8) h (⟨(i 1).val, (i 1).isLt⟩ : Fin 1024)) * rx (ix2 h e)))
      * wo (ix2 e (⟨(i 2).val, (i 2).isLt⟩ : Fin 4096))) + bo (ix1 (⟨(i 2).val, (i 2).isLt⟩ : Fin 4096))

theorem G_apply (k : S8x4x1024.Idx → EReal) (emb : S8x1024x256.Idx → EReal) (wv : S256x256.Idx → EReal) (rx : S4x256.Idx → EReal)
    (wo : S256x4096.Idx → EReal) (bo : S4096.Idx → EReal) (b : Fin 8) (n : Fin 1024) (p : Fin 4096) :
    G k emb wv rx wo bo (ix3 b n p)
      = (∑ e : Fin 256, ((∑ d : Fin 256, emb (ix3 b n d) * wv (ix2 d e)) * (∑ h : Fin 4, k (ix3 b h n) * rx (ix2 h e)))
          * wo (ix2 e p)) + bo (ix1 p) := rfl

/-- What the body stores, at any entry of its block. -/
theorem store_at (v0 : FVec Ideal S1x4x512 .f32) (v2 : FVec Ideal S1x512x256 .bf16) (v4 : FVec Ideal S256x256 .bf16)
    (v7 : FVec Ideal S4x256 .f32) (v11 : FVec Ideal S256x4096 .bf16) (v15 : FVec Ideal S4096 .f32) (y : S1x512x4096.Idx) :
    k2_pay1 (F := Ideal) v0 v2 v4 v7 v11 v15 y
      = (∑ e : Fin 256, ((∑ d : Fin 256, v2 (ix3 (0 : Fin 1) (⟨(y 1).val, (y 1).isLt⟩ : Fin 512) d) * v4 (ix2 d e))
            * (∑ h : Fin 4, v0 (ix3 (0 : Fin 1) h (⟨(y 1).val, (y 1).isLt⟩ : Fin 512)) * v7 (ix2 h e)))
            * v11 (ix2 e (⟨(y 2).val, (y 2).isLt⟩ : Fin 4096))) + v15 (ix1 (⟨(y 2).val, (y 2).isLt⟩ : Fin 4096)) := by
  obtain ⟨u, r, p, rfl⟩ : ∃ (u : Fin 1) (r : Fin 512) (p : Fin 4096), y = ix3 u r p := ⟨y 0, y 1, y 2, eq_ix3 y⟩
  exact Cert.KPay.out_store v0 v2 v4 v7 v11 v15 u r p

/-- The windows' block indices over the grid. -/
theorem idx_facts : ∀ t : Fin cfg2.N, win2_0.index t (0 : Fin 3) = win2_6.index t (0 : Fin 3)
    ∧ win2_0.index t (1 : Fin 3) = 0 ∧ win2_0.index t (2 : Fin 3) = win2_6.index t (1 : Fin 3)
    ∧ win2_1.index t (0 : Fin 3) = win2_6.index t (0 : Fin 3) ∧ win2_1.index t (1 : Fin 3) = win2_6.index t (1 : Fin 3)
    ∧ win2_1.index t (2 : Fin 3) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0
    ∧ win2_6.index t (2 : Fin 3) = 0 ∧ win2_6.index t (0 : Fin 3) < 8 ∧ win2_6.index t (1 : Fin 3) < 2 :=
  (by decide +kernel : ∀ t : Fin grid2.N, _)

/-- Every block of the output is some point's. -/
theorem idx_onto : ∀ (q0 : Fin 8) (q1 : Fin 2), ∃ t : Fin cfg2.N, win2_6.index t = ![q0.val, q1.val, 0] :=
  (by decide +kernel : ∀ (q0 : Fin 8) (q1 : Fin 2), ∃ t : Fin grid2.N, win2_6.index t = ![q0.val, q1.val, 0])

/-- What point `t` writes back is block `t` of the output array. -/
theorem flushed_eq (t : Fin cfg2.N) :
    (dat2 V c).flushed 6 t = ((cfg2.win 6).blk t).view.read (Elt Ideal)
      (G (V c main_v24) (V c main_v23_0) (V c main_v9) (V c main_v22) (V c main_v11) (V c main_arg8)) := by
  show (cfg2.win 6).cut (grid2.coords t) ((dat2 V c).after 6 t) = _
  rw [after2_6]
  unfold out2_6
  rw [View.canon_unit_zero hz3]
  simp only [View.ld_unit_zero (S := S1x4x512) hz3, View.ld_unit_zero (S := S1x512x256) hz3, View.ld_unit_zero (S := S256x256) hz2,
    View.ld_unit_zero (S := S4x256) hz2, View.ld_unit_zero (S := S256x4096) hz2, View.ld_unit_zero (S := S4096) hz1]
  obtain ⟨e0, e1, e2, e3, e4, e5, e6, e7, e8, e9, e10, e11, e12, e13, e14, e15⟩ := idx_facts t
  funext j
  refine (store_at (iblk2 V c 0 t) (iblk2 V c 1 t) (iblk2 V c 2 t) (iblk2 V c 3 t) (iblk2 V c 4 t) (iblk2 V c 5 t) j).trans ?_
  show _ = G (V c main_v24) (V c main_v23_0) (V c main_v9) (V c main_v22) (V c main_v11) (V c main_arg8) (((cfg2.win 6).blk t).view.emb j)
  unfold G
  have hj0 : (j 0).val < 1 := (j 0).isLt
  have hj1 : (j 1).val < 512 := (j 1).isLt
  have hj2 : (j 2).val < 4096 := (j 2).isLt
  have hemb : ∀ d : Fin 256, iblk2 V c 1 t (ix3 (0 : Fin 1) (⟨(j 1).val, (j 1).isLt⟩ : Fin 512) d)
      = V c main_v23_0 (ix3 (⟨((((cfg2.win 6).blk t).view.emb j) 0).val, ((((cfg2.win 6).blk t).view.emb j) 0).isLt⟩ : Fin 8) (⟨((((cfg2.win 6).blk t).view.emb j) 1).val, ((((cfg2.win 6).blk t).view.emb j) 1).isLt⟩ : Fin 1024) d) := fun d => by
    show V c main_v23_0 (((cfg2.win 1).blk t).view.emb (ix3 (0 : Fin 1) (⟨(j 1).val, (j 1).isLt⟩ : Fin 512) d)) = _
    refine congrArg (V c main_v23_0) ?_
    funext a; apply Fin.ext
    match a with
    | ⟨0, _⟩ => show win2_1.index t (0 : Fin 3) * 1 + 1 * 0 = win2_6.index t (0 : Fin 3) * 1 + 1 * (j 0).val; omega
    | ⟨1, _⟩ => show win2_1.index t (1 : Fin 3) * 512 + 1 * (j 1).val = win2_6.index t (1 : Fin 3) * 512 + 1 * (j 1).val; omega
    | ⟨2, _⟩ => show win2_1.index t (2 : Fin 3) * 256 + 1 * d.val = d.val; omega
  have hk : ∀ h : Fin 4, iblk2 V c 0 t (ix3 (0 : Fin 1) h (⟨(j 1).val, (j 1).isLt⟩ : Fin 512))
      = V c main_v24 (ix3 (⟨((((cfg2.win 6).blk t).view.emb j) 0).val, ((((cfg2.win 6).blk t).view.emb j) 0).isLt⟩ : Fin 8) h (⟨((((cfg2.win 6).blk t).view.emb j) 1).val, ((((cfg2.win 6).blk t).view.emb j) 1).isLt⟩ : Fin 1024)) := fun h => by
    show V c main_v24 (((cfg2.win 0).blk t).view.emb (ix3 (0 : Fin 1) h (⟨(j 1).val, (j 1).isLt⟩ : Fin 512))) = _
    refine congrArg (V c main_v24) ?_
    funext a; apply Fin.ext
    match a with
    | ⟨0, _⟩ => show win2_0.index t (0 : Fin 3) * 1 + 1 * 0 = win2_6.index t (0 : Fin 3) * 1 + 1 * (j 0).val; omega
    | ⟨1, _⟩ => show win2_0.index t (1 : Fin 3) * 4 + 1 * h.val = h.val; omega
    | ⟨2, _⟩ => show win2_0.index t (2 : Fin 3) * 512 + 1 * (j 1).val = win2_6.index t (1 : Fin 3) * 512 + 1 * (j 1).val; omega
  have hwv : ∀ (d e : Fin 256), iblk2 V c 2 t (ix2 d e) = V c main_v9 (ix2 d e) := fun d e => by
    show V c main_v9 (((cfg2.win 2).blk t).view.emb (ix2 d e)) = _
    refine congrArg (V c main_v9) ?_
    funext a; apply Fin.ext
    match a with
    | ⟨0, _⟩ => show win2_2.index t (0 : Fin 2) * 256 + 1 * d.val = d.val; omega
    | ⟨1, _⟩ => show win2_2.index t (1 : Fin 2) * 256 + 1 * e.val = e.val; omega
  have hrx : ∀ (h : Fin 4) (e : Fin 256), iblk2 V c 3 t (ix2 h e) = V c main_v22 (ix2 h e) := fun h e => by
    show V c main_v22 (((cfg2.win 3).blk t).view.emb (ix2 h e)) = _
    refine congrArg (V c main_v22) ?_
    funext a; apply Fin.ext
    match a with
    | ⟨0, _⟩ => show win2_3.index t (0 : Fin 2) * 4 + 1 * h.val = h.val; omega
    | ⟨1, _⟩ => show win2_3.index t (1 : Fin 2) * 256 + 1 * e.val = e.val; omega
  have hwo : ∀ e : Fin 256, iblk2 V c 4 t (ix2 e (⟨(j 2).val, (j 2).isLt⟩ : Fin 4096))
      = V c main_v11 (ix2 e (⟨((((cfg2.win 6).blk t).view.emb j) 2).val, ((((cfg2.win 6).blk t).view.emb j) 2).isLt⟩ : Fin 4096)) := fun e => by
    show V c main_v11 (((cfg2.win 4).blk t).view.emb (ix2 e (⟨(j 2).val, (j 2).isLt⟩ : Fin 4096))) = _
    refine congrArg (V c main_v11) ?_
    funext a; apply Fin.ext
    match a with
    | ⟨0, _⟩ => show win2_4.index t (0 : Fin 2) * 256 + 1 * e.val = e.val; omega
    | ⟨1, _⟩ => show win2_4.index t (1 : Fin 2) * 4096 + 1 * (j 2).val = win2_6.index t (2 : Fin 3) * 4096 + 1 * (j 2).val; omega
  have hbo : iblk2 V c 5 t (ix1 (⟨(j 2).val, (j 2).isLt⟩ : Fin 4096)) = V c main_arg8 (ix1 (⟨((((cfg2.win 6).blk t).view.emb j) 2).val, ((((cfg2.win 6).blk t).view.emb j) 2).isLt⟩ : Fin 4096)) := by
    show V c main_arg8 (((cfg2.win 5).blk t).view.emb (ix1 (⟨(j 2).val, (j 2).isLt⟩ : Fin 4096))) = _
    refine congrArg (V c main_arg8) ?_
    funext a; apply Fin.ext
    match a with
    | ⟨0, _⟩ => show win2_5.index t (0 : Fin 1) * 4096 + 1 * (j 2).val = win2_6.index t (2 : Fin 3) * 4096 + 1 * (j 2).val; omega
  rw [hbo]
  refine congrArg (· + V c main_arg8 (ix1 (⟨((((cfg2.win 6).blk t).view.emb j) 2).val, ((((cfg2.win 6).blk t).view.emb j) 2).isLt⟩ : Fin 4096))) ?_
  refine Finset.sum_congr rfl fun e _ => ?_
  rw [hwo e]
  refine congrArg (· * V c main_v11 (ix2 e (⟨((((cfg2.win 6).blk t).view.emb j) 2).val, ((((cfg2.win 6).blk t).view.emb j) 2).isLt⟩ : Fin 4096))) ?_
  refine congrArg₂ (· * ·) (Finset.sum_congr rfl fun d _ => ?_) (Finset.sum_congr rfl fun h _ => ?_)
  · rw [hemb d, hwv d e]
  · rw [hk h, hrx h e]

/-- An index is in point `t`'s block iff each coordinate is in the block's range on its axis. -/
theorem mem_blk (t : Fin cfg2.N) (i : S8x1024x4096.Idx) :
    i ∈ ((cfg2.win 6).blk t).view.set ↔ ∀ a : Fin 3, win2_6.index t a * S1x512x4096.size a ≤ (i a).val
      ∧ (i a).val < win2_6.index t a * S1x512x4096.size a + S1x512x4096.size a := by
  show i ∈ ((View.whole main_v25).slice (win2_6.rect t)).set ↔ _
  rw [View.set_slice_whole, Rect.mem_set_unit]
  exact Iff.rfl

/-- The 16 blocks cover the array. -/
theorem cover (i : S8x1024x4096.Idx) : ∃ t : Fin cfg2.N, (cfg2.win 6).flush t = true ∧ i ∈ ((cfg2.win 6).blk t).view.set := by
  have hi0 : (i 0).val < 8 := (i 0).isLt
  have hi1 : (i 1).val < 1024 := (i 1).isLt
  have hi2 : (i 2).val < 4096 := (i 2).isLt
  obtain ⟨t, ht⟩ := idx_onto ⟨(i 0).val, hi0⟩ ⟨(i 1).val / 512, by omega⟩
  have q0 : win2_6.index t (0 : Fin 3) = (i 0).val := congrFun ht 0
  have q1 : win2_6.index t (1 : Fin 3) = (i 1).val / 512 := congrFun ht 1
  have q2 : win2_6.index t (2 : Fin 3) = 0 := congrFun ht 2
  refine ⟨t, flush2_6 t, ?_⟩
  rw [mem_blk]
  intro a
  match a with
  | ⟨0, _⟩ => show win2_6.index t (0 : Fin 3) * 1 ≤ (i 0).val ∧ (i 0).val < win2_6.index t (0 : Fin 3) * 1 + 1; omega
  | ⟨1, _⟩ => show win2_6.index t (1 : Fin 3) * 512 ≤ (i 1).val ∧ (i 1).val < win2_6.index t (1 : Fin 3) * 512 + 512; omega
  | ⟨2, _⟩ => show win2_6.index t (2 : Fin 3) * 4096 ≤ (i 2).val ∧ (i 2).val < win2_6.index t (2 : Fin 3) * 4096 + 4096; omega

/-- After the run the output's array is `G` of the arrays the kernel was entered with. -/
theorem final : (dat2 V c).arrAt 6 cfg2.N
    = G (V c main_v24) (V c main_v23_0) (V c main_v9) (V c main_v22) (V c main_v11) (V c main_arg8) :=
  (dat2 V c).arrAt_eq_of_cover 6 _ (fun t _ => flushed_eq V c t) (cover)

end Cert.KReg2

end
-- ==== Proof.KChain.lean ====
/-
  The idealized kernel program's result, read through its three kernels back to the launch memory.

  The last boundary's contents at the result buffer are the fold back to an image of the third kernel's output
  array. That array is the third kernel's function of the gate (the second kernel's array), the embedding (the first
  kernel's first array) and host-made arrays; the gate is the second kernel's function of the averaged query (the first
  kernel's second array) and `Wk`; and the first kernel's arrays are functions of host-made arrays only: the patches,
  the transposed weights, and the two 0/1-weighted head matrices. Substituting what the host operations made — a
  transpose read at `(p, d)` is the matrix at `(d, p)`; the head matrices are `1/64` resp. `1` where the column's
  head is the row, `0` elsewhere — each stage is the specification's: the embedding, the averaged query
  (`masked_mean`), the gate, and the output (`masked_pick`, and the product of gate and value commuted).
-/
import proofs.«174765_j1992864825604_2_alg».proof.Proof.Gen.KernelIdeal.Frame
import proofs.«174765_j1992864825604_2_alg».proof.Proof.Spec
import proofs.«174765_j1992864825604_2_alg».proof.Proof.KHost
import proofs.«174765_j1992864825604_2_alg».proof.Proof.KReg0
import proofs.«174765_j1992864825604_2_alg».proof.Proof.KReg1
import proofs.«174765_j1992864825604_2_alg».proof.Proof.KReg2

set_option maxRecDepth 16384

noncomputable section

namespace Cert.KChain

open Cert.KernelIdeal Cert.KernelIdeal.Gen
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg) (c : Dev nD)

/-! ## The specification's arguments, read off the launch memory -/

def P : Fin 8 → Fin 1024 → Fin 4096 → EReal := fun b n p => Cert.KHost.patchesK (m ((c.tc : Thread nD τ).loc main_arg0)) (ix3 b n p)
def We : Fin 256 → Fin 4096 → EReal := fun d p => (m ((c.tc : Thread nD τ).loc main_arg1) : S256x4096.Idx → EReal) (ix2 d p)
def be : Fin 256 → EReal := fun d => (m ((c.tc : Thread nD τ).loc main_arg2) : S256.Idx → EReal) (ix1 d)
def pos : Fin 1024 → Fin 256 → EReal := fun n d => (m ((c.tc : Thread nD τ).loc main_arg3) : S1x1024x256.Idx → EReal) (ix3 (0 : Fin 1) n d)
def Wq : Fin 256 → Fin 256 → EReal := fun e d => (m ((c.tc : Thread nD τ).loc main_arg4) : S256x256.Idx → EReal) (ix2 e d)
def Wk : Fin 1024 → Fin 1024 → EReal := fun a n => (m ((c.tc : Thread nD τ).loc main_arg5) : S1024x1024.Idx → EReal) (ix2 a n)
def Wv : Fin 256 → Fin 256 → EReal := fun e d => (m ((c.tc : Thread nD τ).loc main_arg6) : S256x256.Idx → EReal) (ix2 e d)
def Wout : Fin 4096 → Fin 256 → EReal := fun p e => (m ((c.tc : Thread nD τ).loc main_arg7) : S4096x256.Idx → EReal) (ix2 p e)
def bout : Fin 4096 → EReal := fun p => (m ((c.tc : Thread nD τ).loc main_arg8) : S4096.Idx → EReal) (ix1 p)

/-! ## The first kernel's arrays -/

/-- The embedding's array after the first kernel. -/
theorem v23_0_eq : (V7 m ρ c main_v23_0 : S8x1024x256.Idx → EReal)
    = Cert.KReg0.Gemb (V6 m ρ c main_v3) (V6 m ρ c main_v5) (V6 m ρ c main_arg2) (V6 m ρ c main_arg3) :=
  (hF0 m ρ c 6).symm.trans (Cert.KReg0.final6 (V6 m ρ) c)

/-- The averaged query's array after the first kernel. -/
theorem v23_1_eq : (V7 m ρ c main_v23_1 : S8x4x1024.Idx → EReal)
    = Cert.KReg0.Gq (V6 m ρ c main_v3) (V6 m ρ c main_v5) (V6 m ρ c main_arg2) (V6 m ρ c main_arg3) (V6 m ρ c main_v7) (V6 m ρ c main_v21) :=
  (hF0 m ρ c 7).symm.trans (Cert.KReg0.final7 (V6 m ρ) c)

/-- The first kernel's embedding array is the specification's embedding. -/
theorem gemb_eq (b : Fin 8) (n : Fin 1024) (d : Fin 256) :
    Cert.KReg0.Gemb (V6 m ρ c main_v3) (V6 m ρ c main_v5) (V6 m ρ c main_arg2) (V6 m ρ c main_arg3) (ix3 b n d)
      = Cert.Spec.emb (P m c) (We m c) (be m c) (pos m c) b n d := by
  rw [Cert.KReg0.Gemb_apply, Cert.KHost.arg_at2, Cert.KHost.arg_at3]
  unfold Cert.Spec.emb
  refine congrArg (· + be m c d + pos m c n d) ?_
  refine Finset.sum_congr rfl fun p _ => ?_
  rw [Cert.KHost.patches_at, Cert.KHost.wembT_at]
  rfl

/-- The first kernel's averaged-query array is the specification's averaged query. -/
theorem gq_eq (b : Fin 8) (h : Fin 4) (n : Fin 1024) :
    Cert.KReg0.Gq (V6 m ρ c main_v3) (V6 m ρ c main_v5) (V6 m ρ c main_arg2) (V6 m ρ c main_arg3) (V6 m ρ c main_v7) (V6 m ρ c main_v21) (ix3 b h n)
      = Cert.Spec.qmean (P m c) (We m c) (be m c) (pos m c) (Wq m c) b h n := by
  rw [Cert.KReg0.Gq_apply]
  unfold Cert.Spec.qmean
  rw [← Cert.Spec.masked_mean (1 / 64) (by norm_num) h]
  refine Finset.sum_congr rfl fun e _ => ?_
  rw [Cert.KHost.mavg_at, Cert.Spec.word_inv64, Cert.Spec.word_zero]
  refine congrArg ((if Cert.Spec.headOf e = h then ((1 / 64 : ℝ) : EReal) else 0) * ·) ?_
  unfold Cert.Spec.qfull
  refine Finset.sum_congr rfl fun d _ => ?_
  rw [gemb_eq, Cert.KHost.wqT_at]
  rfl

/-! ## The second kernel's array -/

theorem v24_eq : (V8 m ρ c main_v24 : S8x4x1024.Idx → EReal) = Cert.KReg1.G (V7 m ρ c main_v23_1) (V7 m ρ c main_v12) :=
  (hF1 m ρ c 2).symm.trans (Cert.KReg1.final (V7 m ρ) c)

/-- `Wk` (in the kernel's format) reaches the second kernel as the host made it. -/
theorem v12_at7 : V7 m ρ c main_v12 = V6 m ρ c main_v12 := W7_of_ne m ρ c main_v12 (by decide)

/-- The second kernel's array is the specification's gate. -/
theorem gate_eq (b : Fin 8) (h : Fin 4) (a : Fin 1024) :
    (V8 m ρ c main_v24 : S8x4x1024.Idx → EReal) (ix3 b h a)
      = Cert.Spec.gate (P m c) (We m c) (be m c) (pos m c) (Wq m c) (Wk m c) b h a := by
  rw [v24_eq, Cert.KReg1.G_apply, v23_1_eq, v12_at7]
  unfold Cert.Spec.gate
  refine congrArg Ideal.logistic (Finset.sum_congr rfl fun n _ => ?_)
  rw [gq_eq, Cert.KHost.wk_at]
  rfl

/-! ## The third kernel's array -/

theorem v25_eq : (W9 m ρ c (Proc.devRef .tc main_v25) : S8x1024x4096.Idx → EReal)
    = Cert.KReg2.G (V8 m ρ c main_v24) (V8 m ρ c main_v23_0) (V8 m ρ c main_v9) (V8 m ρ c main_v22) (V8 m ρ c main_v11) (V8 m ρ c main_arg8) :=
  (W9_arr m ρ c 6).trans (Cert.KReg2.final (V8 m ρ) c)

theorem v23_0_at8 : V8 m ρ c main_v23_0 = V7 m ρ c main_v23_0 := W8_of_ne m ρ c main_v23_0 (by decide)
theorem v9_at8 : V8 m ρ c main_v9 = V6 m ρ c main_v9 :=
  (W8_of_ne m ρ c main_v9 (by decide)).trans (W7_of_ne m ρ c main_v9 (by decide))
theorem v22_at8 : V8 m ρ c main_v22 = V6 m ρ c main_v22 :=
  (W8_of_ne m ρ c main_v22 (by decide)).trans (W7_of_ne m ρ c main_v22 (by decide))
theorem v11_at8 : V8 m ρ c main_v11 = V6 m ρ c main_v11 :=
  (W8_of_ne m ρ c main_v11 (by decide)).trans (W7_of_ne m ρ c main_v11 (by decide))
theorem arg8_at8 : V8 m ρ c main_arg8 = V6 m ρ c main_arg8 :=
  (W8_of_ne m ρ c main_arg8 (by decide)).trans (W7_of_ne m ρ c main_arg8 (by decide))

/-- The third kernel's array is the specification's output. -/
theorem out_eq (b : Fin 8) (n : Fin 1024) (p : Fin 4096) :
    (W9 m ρ c (Proc.devRef .tc main_v25) : S8x1024x4096.Idx → EReal) (ix3 b n p)
      = Cert.Spec.out (P m c) (We m c) (be m c) (pos m c) (Wq m c) (Wk m c) (Wv m c) (Wout m c) (bout m c) b n p := by
  rw [v25_eq, Cert.KReg2.G_apply, arg8_at8, Cert.KHost.arg_at8]
  unfold Cert.Spec.out
  refine congrArg (· + bout m c p) ?_
  refine Finset.sum_congr rfl fun e _ => ?_
  rw [v11_at8, Cert.KHost.woutT_at]
  refine congrArg (· * Wout m c p e) ?_
  unfold Cert.Spec.mixed
  refine (congrArg₂ (fun x y : EReal => x * y) ?hval ?hpick).trans (mul_comm _ _)
  case hval =>
    unfold Cert.Spec.value
    refine Finset.sum_congr rfl fun d _ => ?_
    rw [v23_0_at8, v23_0_eq, gemb_eq, v9_at8, Cert.KHost.wvT_at]
    rfl
  case hpick =>
    rw [← Cert.Spec.masked_pick e (fun h => Cert.Spec.gate (P m c) (We m c) (be m c) (pos m c) (Wq m c) (Wk m c) b h n)]
    refine Finset.sum_congr rfl fun h _ => ?_
    rw [gate_eq, v22_at8, Cert.KHost.rexp_at, Cert.Spec.word_one, Cert.Spec.word_zero]

/-! ## The result -/

/-- The specification's output as an array. -/
def outArr : S8x1024x4096.Idx → EReal := fun i =>
  Cert.Spec.out (P m c) (We m c) (be m c) (pos m c) (Wq m c) (Wk m c) (Wv m c) (Wout m c) (bout m c)
    (⟨(i 0).val, (i 0).isLt⟩ : Fin 8) (⟨(i 1).val, (i 1).isLt⟩ : Fin 1024) (⟨(i 2).val, (i 2).isLt⟩ : Fin 4096)

/-- The result buffer ends holding the specification's output, folded back to an image. -/
theorem result_eq : (W10 m ρ c (Proc.devRef .tc main_v28) : S8x1x64x256x256.Idx → EReal) = Cert.KHost.foldK (outArr m c) := by
  rw [Cert.KHost.fold_at]
  refine congrArg Cert.KHost.foldK ?_
  funext i
  obtain ⟨b, n, p, rfl⟩ : ∃ (b : Fin 8) (n : Fin 1024) (p : Fin 4096), i = ix3 b n p := ⟨i 0, i 1, i 2, eq_ix3 i⟩
  exact out_eq m ρ c b n p

end Cert.KChain

end
-- ==== Proof.RefOut.lean ====
/-
  The reference program computes the specification's function.

  The reference embeds each patch, forms the query and the value by two products with square matrices, averages
  the query over the 64 coordinates of each of the 4 heads (a sum from the word 0, divided by the word 64), turns the
  averaged query's product with the key matrix into a gate by 1 / (1 + exp (−x)), multiplies each value coordinate by
  the gate of its head, and applies the output matrix and bias. Each stage is read at one index of its array and
  identified with the specification's function of the same name; the array of patches is never opened.
-/
import proofs.«174765_j1992864825604_2_alg».proof.Proof.Gen.ReferenceIdeal.Read
import proofs.«174765_j1992864825604_2_alg».proof.Proof.Spec

noncomputable section

namespace Cert.RefOut

open Cert.ReferenceIdeal Cert.ReferenceIdeal.Gen Cert.ReferenceIdeal.Read Idealize.ShloMosaic Idealize.ShloMosaic.ValueIdx
open scoped BigOperators

/-! ## Index equations

Each operation reads its operands at an index computed from the result's index. At an index given by coordinates these
computed indices are again given by coordinates. The only arithmetic is in the two reshapes between 256 coordinates
and 4 heads of 64: the flat coordinate of head `h`, place `j` is `64 * h + j`. -/

theorem lidx3 (b : Fin 8) (n : Fin 1024) (d : Fin 256) (k : Fin 4096) : lidx_main_v3 (ix3 b n d) k = ix3 b n k :=
  funext fun a => Fin.ext (by match a with | ⟨0, _⟩ => rfl | ⟨1, _⟩ => rfl | ⟨2, _⟩ => rfl)
theorem ridx3 (b : Fin 8) (n : Fin 1024) (d : Fin 256) (k : Fin 4096) : ridx_main_v3 (ix3 b n d) k = ix2 d k :=
  funext fun a => Fin.ext (by match a with | ⟨0, _⟩ => rfl | ⟨1, _⟩ => rfl)
theorem idx54 (b : Fin 8) (n : Fin 1024) (d : Fin 256) : idx_main_v4 (idx_main_v5 (ix3 b n d)) = ix1 d :=
  funext fun a => Fin.ext (by match a with | ⟨0, _⟩ => rfl)
theorem idx7 (b : Fin 8) (n : Fin 1024) (d : Fin 256) : idx_main_v7 (ix3 b n d) = ix3 (0 : Fin 1) n d :=
  funext fun a => Fin.ext (by match a with | ⟨0, _⟩ => rfl | ⟨1, _⟩ => rfl | ⟨2, _⟩ => rfl)

theorem lidx9 (b : Fin 8) (n : Fin 1024) (e : Fin 256) (k : Fin 256) : lidx_main_v9 (ix3 b n e) k = ix3 b n k :=
  funext fun a => Fin.ext (by match a with | ⟨0, _⟩ => rfl | ⟨1, _⟩ => rfl | ⟨2, _⟩ => rfl)
theorem ridx9 (b : Fin 8) (n : Fin 1024) (e : Fin 256) (k : Fin 256) : ridx_main_v9 (ix3 b n e) k = ix2 e k :=
  funext fun a => Fin.ext (by match a with | ⟨0, _⟩ => rfl | ⟨1, _⟩ => rfl)
theorem lidx22 (b : Fin 8) (n : Fin 1024) (e : Fin 256) (k : Fin 256) : lidx_main_v22 (ix3 b n e) k = ix3 b n k :=
  funext fun a => Fin.ext (by match a with | ⟨0, _⟩ => rfl | ⟨1, _⟩ => rfl | ⟨2, _⟩ => rfl)
theorem ridx22 (b : Fin 8) (n : Fin 1024) (e : Fin 256) (k : Fin 256) : ridx_main_v22 (ix3 b n e) k = ix2 e k :=
  funext fun a => Fin.ext (by match a with | ⟨0, _⟩ => rfl | ⟨1, _⟩ => rfl)

/-- Head `h`, patch `n`, place `k` of the transposed four-axis query is coordinate `64 * h + k` of patch `n`. -/
theorem idx10 (b : Fin 8) (h : Fin 4) (n : Fin 1024) (k : Fin 64) :
    idx_main_v10 (idx_main_v11 (idx_main_v12 (ix3 b h n) k)) = ix3 b n (Cert.Spec.hd h k) :=
  funext fun a => Fin.ext (by
    have hb := b.isLt; have hh := h.isLt; have hn := n.isLt; have hk := k.isLt
    match a with
    | ⟨0, _⟩ => show (((b.val * 1024 + n.val) * 4 + h.val) * 64 + k.val) / 262144 = b.val; omega
    | ⟨1, _⟩ => show (((b.val * 1024 + n.val) * 4 + h.val) * 64 + k.val) / 256 % 1024 = n.val; omega
    | ⟨2, _⟩ => show (((b.val * 1024 + n.val) * 4 + h.val) * 64 + k.val) % 256 = 64 * h.val + k.val; omega)

theorem lidx15 (b : Fin 8) (h : Fin 4) (m : Fin 1024) (k : Fin 1024) : lidx_main_v15 (ix3 b h m) k = ix3 b h k :=
  funext fun a => Fin.ext (by match a with | ⟨0, _⟩ => rfl | ⟨1, _⟩ => rfl | ⟨2, _⟩ => rfl)
theorem ridx15 (b : Fin 8) (h : Fin 4) (m : Fin 1024) (k : Fin 1024) : ridx_main_v15 (ix3 b h m) k = ix2 m k :=
  funext fun a => Fin.ext (by match a with | ⟨0, _⟩ => rfl | ⟨1, _⟩ => rfl)

/-- Coordinate `e` of patch `n` of the gated value reads the gate at `e`'s head and patch `n`. -/
theorem idx25 (b : Fin 8) (n : Fin 1024) (e : Fin 256) :
    idx_main_v25 (idx_main_v26 (idx_main_v28 (idx_main_v29 (ix3 b n e)))) = ix3 b (Cert.Spec.headOf e) n :=
  funext fun a => Fin.ext (by
    have hb := b.isLt; have hn := n.isLt; have he := e.isLt
    match a with
    | ⟨0, _⟩ => show ((b.val * 1024 + n.val) * 256 + e.val) / 262144 = b.val; omega
    | ⟨1, _⟩ => show ((b.val * 1024 + n.val) * 256 + e.val) / 64 % 4 = e.val / 64; omega
    | ⟨2, _⟩ => show ((b.val * 1024 + n.val) * 256 + e.val) / 256 % 1024 = n.val; omega)

/-- Coordinate `e` of patch `n` of the gated value reads the value at the same patch and coordinate: splitting `e`
    into head and place and flattening again gives `e` back. -/
theorem idx23 (b : Fin 8) (n : Fin 1024) (e : Fin 256) :
    idx_main_v23 (idx_main_v24 (idx_main_v28 (idx_main_v29 (ix3 b n e)))) = ix3 b n e :=
  funext fun a => Fin.ext (by
    have hb := b.isLt; have hn := n.isLt; have he := e.isLt
    match a with
    | ⟨0, _⟩ =>
      show ((((((b.val * 1024 + n.val) * 256 + e.val) / 262144) * 1024 + ((b.val * 1024 + n.val) * 256 + e.val) / 256 % 1024) * 4
        + ((b.val * 1024 + n.val) * 256 + e.val) / 64 % 4) * 64 + ((b.val * 1024 + n.val) * 256 + e.val) % 64) / 262144 = b.val
      omega
    | ⟨1, _⟩ =>
      show ((((((b.val * 1024 + n.val) * 256 + e.val) / 262144) * 1024 + ((b.val * 1024 + n.val) * 256 + e.val) / 256 % 1024) * 4
        + ((b.val * 1024 + n.val) * 256 + e.val) / 64 % 4) * 64 + ((b.val * 1024 + n.val) * 256 + e.val) % 64) / 256 % 1024 = n.val
      omega
    | ⟨2, _⟩ =>
      show ((((((b.val * 1024 + n.val) * 256 + e.val) / 262144) * 1024 + ((b.val * 1024 + n.val) * 256 + e.val) / 256 % 1024) * 4
        + ((b.val * 1024 + n.val) * 256 + e.val) / 64 % 4) * 64 + ((b.val * 1024 + n.val) * 256 + e.val) % 64) % 256 = e.val
      omega)

theorem lidx30 (b : Fin 8) (n : Fin 1024) (p : Fin 4096) (k : Fin 256) : lidx_main_v30 (ix3 b n p) k = ix3 b n k :=
  funext fun a => Fin.ext (by match a with | ⟨0, _⟩ => rfl | ⟨1, _⟩ => rfl | ⟨2, _⟩ => rfl)
theorem ridx30 (b : Fin 8) (n : Fin 1024) (p : Fin 4096) (k : Fin 256) : ridx_main_v30 (ix3 b n p) k = ix2 p k :=
  funext fun a => Fin.ext (by match a with | ⟨0, _⟩ => rfl | ⟨1, _⟩ => rfl)
theorem idx3231 (b : Fin 8) (n : Fin 1024) (p : Fin 4096) : idx_main_v31 (idx_main_v32 (ix3 b n p)) = ix1 p :=
  funext fun a => Fin.ext (by match a with | ⟨0, _⟩ => rfl)

/-! ## The stages -/

section
variable (x0 : (⟨S8x1x64x256x256, .f32⟩ : BufTy).Contents (Elt Ideal)) (x1 : (⟨S256x4096, .f32⟩ : BufTy).Contents (Elt Ideal)) (x2 : (⟨S256, .f32⟩ : BufTy).Contents (Elt Ideal)) (x3 : (⟨S1x1024x256, .f32⟩ : BufTy).Contents (Elt Ideal)) (x4 : (⟨S256x256, .f32⟩ : BufTy).Contents (Elt Ideal)) (x5 : (⟨S1024x1024, .f32⟩ : BufTy).Contents (Elt Ideal)) (x6 : (⟨S256x256, .f32⟩ : BufTy).Contents (Elt Ideal)) (x7 : (⟨S4096x256, .f32⟩ : BufTy).Contents (Elt Ideal)) (x8 : (⟨S4096, .f32⟩ : BufTy).Contents (Elt Ideal))

/- The specification's arguments, read off the program's arrays by coordinates. The array of patches is the
   reference's own rearrangement of the input image and stays closed. -/
local notation "sP" => (fun (b : Fin 8) (n : Fin 1024) (p : Fin 4096) => val_main_v2 (F := Ideal) x0 (ix3 b n p))
local notation "sWe" => (fun (d : Fin 256) (p : Fin 4096) => x1 (ix2 d p))
local notation "sbe" => (fun (d : Fin 256) => x2 (ix1 d))
local notation "spos" => (fun (n : Fin 1024) (d : Fin 256) => x3 (ix3 (0 : Fin 1) n d))
local notation "sWq" => (fun (e : Fin 256) (d : Fin 256) => x4 (ix2 e d))
local notation "sWk" => (fun (m : Fin 1024) (n : Fin 1024) => x5 (ix2 m n))
local notation "sWv" => (fun (e : Fin 256) (d : Fin 256) => x6 (ix2 e d))
local notation "sWout" => (fun (p : Fin 4096) (e : Fin 256) => x7 (ix2 p e))
local notation "sbout" => (fun (p : Fin 4096) => x8 (ix1 p))

/-- The embedding: patches times the embedding matrix, plus the bias, plus the position table. -/
theorem emb_eq (b : Fin 8) (n : Fin 1024) (d : Fin 256) :
    val_main_v8 (F := Ideal) x0 x1 x2 x3 (ix3 b n d) = Cert.Spec.emb sP sWe sbe spos b n d := by
  rw [val_main_v8_apply, val_main_v6_apply, val_main_v3_apply, val_main_v5_apply, val_main_v4_apply, val_main_v7_apply,
    idx54, idx7, Ideal.addf_def, Ideal.addf_def]
  generalize val_main_v2 (F := Ideal) x0 = P
  unfold Cert.Spec.emb
  congr 2
  exact Finset.sum_congr rfl fun k _ => by rw [lidx3, ridx3]

/-- The query before the head average. -/
theorem qfull_eq (b : Fin 8) (n : Fin 1024) (e : Fin 256) :
    val_main_v9 (F := Ideal) x0 x1 x2 x3 x4 (ix3 b n e) = Cert.Spec.qfull sP sWe sbe spos sWq b n e := by
  rw [val_main_v9_apply]
  unfold Cert.Spec.qfull
  exact Finset.sum_congr rfl fun k _ => by rw [lidx9, ridx9, emb_eq]

/-- The head average: the sum over a head's 64 places, started from the word `0` and divided by the word `64`. -/
theorem qmean_eq (b : Fin 8) (h : Fin 4) (n : Fin 1024) :
    val_main_v14 (F := Ideal) x0 x1 x2 x3 x4 (ix3 b h n) = Cert.Spec.qmean sP sWe sbe spos sWq b h n := by
  rw [val_main_v14_apply, val_main_v12_apply, val_main_v13_apply]
  unfold val_main_cst val_main_cst_0
  rw [constant_apply, constant_apply, Ideal.hostDivf_def, Cert.Spec.word_zero, zero_add, Cert.Spec.div_word_64]
  unfold Cert.Spec.qmean
  congr 1
  exact Finset.sum_congr rfl fun k _ => by rw [val_main_v11_apply, val_main_v10_apply, idx10, qfull_eq]

/-- The gate: `1 / (1 + exp (−x))` of the averaged query's product with the key matrix, which is the logistic
    function by its definition. -/
theorem gate_eq (b : Fin 8) (h : Fin 4) (m : Fin 1024) :
    val_main_v21 (F := Ideal) x0 x1 x2 x3 x4 x5 (ix3 b h m) = Cert.Spec.gate sP sWe sbe spos sWq sWk b h m := by
  have hs : (∑ k : Fin 1024, (val_main_v14 (F := Ideal) x0 x1 x2 x3 x4) (lidx_main_v15 (ix3 b h m) k) * x5 (ridx_main_v15 (ix3 b h m) k))
      = ∑ n : Fin 1024, Cert.Spec.qmean sP sWe sbe spos sWq b h n * x5 (ix2 m n) :=
    Finset.sum_congr rfl fun k _ => by rw [lidx15, ridx15, qmean_eq]
  rw [val_main_v21_apply, val_main_v20_apply, val_main_v19_apply, val_main_v18_apply, val_main_v17_apply, val_main_v16_apply,
    val_main_v15_apply, hs]
  unfold val_main_cst_1 val_main_cst_2
  rw [constant_apply, Cert.Spec.word_one, Ideal.hostDivf_def, Ideal.addf_def, Ideal.hostUnary_exp_def,
    Ideal.hostNegf_def, Ideal.negf_def]
  rfl

/-- The value. -/
theorem value_eq (b : Fin 8) (n : Fin 1024) (e : Fin 256) :
    val_main_v22 (F := Ideal) x0 x1 x2 x3 x6 (ix3 b n e) = Cert.Spec.value sP sWe sbe spos sWv b n e := by
  rw [val_main_v22_apply]
  unfold Cert.Spec.value
  exact Finset.sum_congr rfl fun k _ => by rw [lidx22, ridx22, emb_eq]

/-- The gated value, back in the layout of 256 coordinates per patch. -/
theorem mixed_eq (b : Fin 8) (n : Fin 1024) (e : Fin 256) :
    val_main_v29 (F := Ideal) x0 x1 x2 x3 x4 x5 x6 (ix3 b n e) = Cert.Spec.mixed sP sWe sbe spos sWq sWk sWv b n e := by
  rw [val_main_v29_apply, val_main_v28_apply, val_main_v27_apply, val_main_v26_apply, val_main_v25_apply, val_main_v24_apply,
    val_main_v23_apply, idx25, idx23, gate_eq, value_eq, Ideal.mulf_def]
  rfl

/-- THE REFERENCE'S OUTPUT PATCHES are the specification's. -/
theorem ref_out (b : Fin 8) (n : Fin 1024) (p : Fin 4096) :
    val_main_v33 (F := Ideal) x0 x1 x2 x3 x4 x5 x6 x7 x8 (ix3 b n p)
      = Cert.Spec.out (fun b n p => val_main_v2 (F := Ideal) x0 (ix3 b n p)) (fun d p => x1 (ix2 d p)) (fun d => x2 (ix1 d))
          (fun n d => x3 (ix3 (0 : Fin 1) n d)) (fun e d => x4 (ix2 e d)) (fun m n => x5 (ix2 m n)) (fun e d => x6 (ix2 e d))
          (fun p e => x7 (ix2 p e)) (fun p => x8 (ix1 p)) b n p := by
  rw [val_main_v33_apply, val_main_v30_apply, val_main_v32_apply, val_main_v31_apply, idx3231, Ideal.addf_def]
  unfold Cert.Spec.out
  congr 1
  exact Finset.sum_congr rfl fun k _ => by rw [lidx30, ridx30, mixed_eq]

end

end Cert.RefOut

end
-- ==== Proof.lean ====
/-
  The claim: the kernel program, its idealization and the reference all run and leave their arguments as launched;
  the idealization rewrites nothing; and at the ideal values the kernel program and the reference, run from memories
  that agree on the nine arguments, end with the same image.

  Both programs cut the images into patches by the same reshape–transpose–reshape and fold the output patches
  back by the same inverse, so it is enough that the [8, 1024, 4096] arrays of output patches agree, entry by entry.
  Both are the one function `Spec.out` of the patches and the weights: the reference by reading its host operations
  one at a time, the kernel program by reading its three kernels' arrays through their blocks and the host-made
  arrays they load. Where the kernel takes a head's average by a product with a matrix of `1/64`s and zeros, and
  spreads a head's gate over its 64 coordinates by a product with a 0/1 matrix, the reference sums 64 entries and
  divides by 64, and indexes; the two spellings agree on all extended reals, so the inputs' finiteness is never used.
-/
import proofs.«174765_j1992864825604_2_alg».proof.Defs
import proofs.«174765_j1992864825604_2_alg».proof.Proof.Gen.Kernel
import proofs.«174765_j1992864825604_2_alg».proof.Proof.Gen.Kernel.Skeleton
import proofs.«174765_j1992864825604_2_alg».proof.Proof.Gen.Kernel.Launch
import proofs.«174765_j1992864825604_2_alg».proof.Proof.Gen.Kernel.Points
import proofs.«174765_j1992864825604_2_alg».proof.Proof.Gen.Kernel.Frame
import proofs.«174765_j1992864825604_2_alg».proof.Proof.Gen.KernelIdeal
import proofs.«174765_j1992864825604_2_alg».proof.Proof.Gen.KernelIdeal.Skeleton
import proofs.«174765_j1992864825604_2_alg».proof.Proof.Gen.KernelIdeal.Launch
import proofs.«174765_j1992864825604_2_alg».proof.Proof.Gen.KernelIdeal.Points
import proofs.«174765_j1992864825604_2_alg».proof.Proof.Gen.KernelIdeal.Frame
import proofs.«174765_j1992864825604_2_alg».proof.Proof.Gen.ReferenceIdeal
import proofs.«174765_j1992864825604_2_alg».proof.Proof.Gen.ReferenceIdeal.Run
import proofs.«174765_j1992864825604_2_alg».proof.Proof.Gen.ReferenceIdeal.Read
import proofs.«174765_j1992864825604_2_alg».proof.Proof.Gen.Pre_finite_inputs
import proofs.«174765_j1992864825604_2_alg».proof.Proof.KRun
import proofs.«174765_j1992864825604_2_alg».proof.Proof.KChain
import proofs.«174765_j1992864825604_2_alg».proof.Proof.RefOut
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The reference's patches are the kernel program's: the same three layout operations of the input. -/
theorem patches_same (x : (⟨Cert.KernelIdeal.S8x1x64x256x256, .f32⟩ : BufTy).Contents (Elt Ideal)) :
    Cert.ReferenceIdeal.Read.val_main_v2 (F := Ideal) x = Cert.KHost.patchesK x := rfl

/-- The reference's result is the fold back to an image of its array of output patches. -/
theorem ref_fold (x0 : (⟨Cert.ReferenceIdeal.S8x1x64x256x256, .f32⟩ : BufTy).Contents (Elt Ideal))
    (x1 : (⟨Cert.ReferenceIdeal.S256x4096, .f32⟩ : BufTy).Contents (Elt Ideal))
    (x2 : (⟨Cert.ReferenceIdeal.S256, .f32⟩ : BufTy).Contents (Elt Ideal))
    (x3 : (⟨Cert.ReferenceIdeal.S1x1024x256, .f32⟩ : BufTy).Contents (Elt Ideal))
    (x4 : (⟨Cert.ReferenceIdeal.S256x256, .f32⟩ : BufTy).Contents (Elt Ideal))
    (x5 : (⟨Cert.ReferenceIdeal.S1024x1024, .f32⟩ : BufTy).Contents (Elt Ideal))
    (x6 : (⟨Cert.ReferenceIdeal.S256x256, .f32⟩ : BufTy).Contents (Elt Ideal))
    (x7 : (⟨Cert.ReferenceIdeal.S4096x256, .f32⟩ : BufTy).Contents (Elt Ideal))
    (x8 : (⟨Cert.ReferenceIdeal.S4096, .f32⟩ : BufTy).Contents (Elt Ideal)) :
    Cert.ReferenceIdeal.Read.val_main_v36 (F := Ideal) x0 x1 x2 x3 x4 x5 x6 x7 x8
      = Cert.KHost.foldK (Cert.ReferenceIdeal.Read.val_main_v33 (F := Ideal) x0 x1 x2 x3 x4 x5 x6 x7 x8) := rfl

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the specification's output patches folded back to an image. -/
theorem algebraic : Cert.algebraic_KernelIdeal_ReferenceIdeal := by
  intro m ρ m' ρ' _ hagree
  refine ⟨fun c => Cert.KHost.foldK (Cert.KChain.outArr m c), ?_, ?_⟩
  · refine (θ_run Cert.KernelIdeal.defs _ _).mono (fun r h c => ?_) (Cert.KRun.run_all (F := Ideal) m ρ)
    exact ⟨(h c _ (Cert.KernelIdeal.Gen.mem_uc Cert.KernelIdeal.main_v28 (by decide))).trans (Cert.KChain.result_eq m ρ c),
      (h c _ (Cert.KernelIdeal.Gen.mem_uc Cert.KernelIdeal.main_arg0 (by decide))).trans (Cert.KernelIdeal.Gen.W10_main_arg0 m ρ c),
      (h c _ (Cert.KernelIdeal.Gen.mem_uc Cert.KernelIdeal.main_arg1 (by decide))).trans (Cert.KernelIdeal.Gen.W10_main_arg1 m ρ c),
      (h c _ (Cert.KernelIdeal.Gen.mem_uc Cert.KernelIdeal.main_arg2 (by decide))).trans (Cert.KernelIdeal.Gen.W10_main_arg2 m ρ c),
      (h c _ (Cert.KernelIdeal.Gen.mem_uc Cert.KernelIdeal.main_arg3 (by decide))).trans (Cert.KernelIdeal.Gen.W10_main_arg3 m ρ c),
      (h c _ (Cert.KernelIdeal.Gen.mem_uc Cert.KernelIdeal.main_arg4 (by decide))).trans (Cert.KernelIdeal.Gen.W10_main_arg4 m ρ c),
      (h c _ (Cert.KernelIdeal.Gen.mem_uc Cert.KernelIdeal.main_arg5 (by decide))).trans (Cert.KernelIdeal.Gen.W10_main_arg5 m ρ c),
      (h c _ (Cert.KernelIdeal.Gen.mem_uc Cert.KernelIdeal.main_arg6 (by decide))).trans (Cert.KernelIdeal.Gen.W10_main_arg6 m ρ c),
      (h c _ (Cert.KernelIdeal.Gen.mem_uc Cert.KernelIdeal.main_arg7 (by decide))).trans (Cert.KernelIdeal.Gen.W10_main_arg7 m ρ c),
      (h c _ (Cert.KernelIdeal.Gen.mem_uc Cert.KernelIdeal.main_arg8 (by decide))).trans (Cert.KernelIdeal.Gen.W10_main_arg8 m ρ c)⟩
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v36_eq, ref_fold,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
    refine congrArg Cert.KHost.foldK ?_
    funext i
    obtain ⟨b, n, p, rfl⟩ : ∃ (b : Fin 8) (n : Fin 1024) (p : Fin 4096), i = ix3 b n p := ⟨i 0, i 1, i 2, eq_ix3 i⟩
    refine (Cert.RefOut.ref_out _ _ _ _ _ _ _ _ _ b n p).trans ?_
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
